-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part7 {F : FTy → Type} [FloatOps F] (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  main_v123

def fn_part6 {F : FTy → Type} [FloatOps F] (main_arg23 : FVec F S128 .f32) (main_arg24 : FVec F S128 .f32) (main_arg25 : FVec F S128 .f32) (main_arg26 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg26
  fn_part7 (F := F) main_v118 main_v119

def fn_part5 {F : FTy → Type} [FloatOps F] (main_arg20 : FVec F S128 .f32) (main_arg21 : FVec F S128 .f32) (main_arg22 : FVec F S128 .f32) (main_arg23 : FVec F S128 .f32) (main_arg24 : FVec F S128 .f32) (main_arg25 : FVec F S128 .f32) (main_arg26 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S128 .f32) (main_arg26 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S128 .f32) (main_arg26 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S128 .f32) (main_arg26 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S128 .f32) (main_arg26 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S128 .f32) (main_arg26 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S4000x128 : Shape := ⟨2, ![4000, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩

abbrev nBuf : Space → Nat
  | .hbm => 107
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S1x1600000, .i32⟩
  | .hbm, ⟨28, _⟩ => ⟨S1600000, .i32⟩
  | .hbm, ⟨29, _⟩ => ⟨S1x1600000, .i32⟩
  | .hbm, ⟨30, _⟩ => ⟨S1600000, .i32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S100000x128, .f32⟩
  | .hbm, ⟨91, _⟩ => ⟨S_, .f32⟩
  | .hbm, ⟨92, _⟩ => ⟨S64x128, .f32⟩
  | .hbm, ⟨93, _⟩ => ⟨S100000x1, .i32⟩
  | .hbm, ⟨94, _⟩ => ⟨S64x128, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S64, .f32⟩
  | .hbm, ⟨99, _⟩ => ⟨S100000x1, .i32⟩
  | .hbm, ⟨100, _⟩ => ⟨S64, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S64x1, .f32⟩
  | .hbm, ⟨105, _⟩ => ⟨S64x128, .f32⟩
  | .hbm, ⟨106, _⟩ => ⟨S64x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S4000x128, .f32⟩
  | .local _ .vmem, ⟨41, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_1 : Ref sig .tc := ⟨.hbm, 51, rfl⟩
abbrev main_v21 : Ref sig .tc := ⟨.hbm, 52, rfl⟩
abbrev main_v22 : Ref sig .tc := ⟨.hbm, 53, rfl⟩
abbrev main_c_2 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_3 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c_4 : Ref sig .tc := ⟨.hbm, 71, rfl⟩
abbrev main_v38 : Ref sig .tc := ⟨.hbm, 72, rfl⟩
abbrev main_v39 : Ref sig .tc := ⟨.hbm, 73, rfl⟩
abbrev main_c_5 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_6 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_7 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_8 : Ref sig .tc := ⟨.hbm, 95, rfl⟩
abbrev main_v58 : Ref sig .tc := ⟨.hbm, 96, rfl⟩
abbrev main_cst_9 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_10 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S4000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S100000x128.size a
  hwx0_10 : ∀ i : grid0.Coords, EltTy.bits .f32 = 32 ∨ (Rect.block (s := S100000x128) S4000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x128.size a ≤ S100000x128.size a
  hwx1_10 : ∀ i : grid1.Coords, EltTy.bits .f32 = 32 ∨ (Rect.block (s := S100000x128) S4000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S4000x128.size a ≤ S100000x128.size a
  hwx2_10 : ∀ i : grid2.Coords, EltTy.bits .f32 = 32 ∨ (Rect.block (s := S100000x128) S4000x128.size (cc2_transform_10 i) (hinb2_10 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v20) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v37) S4000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v37) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v51) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v52) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v53) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v54) S4000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩

abbrev nBuf : Space → Nat
  | .hbm => 173
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S128, .f32⟩
  | 24 => ⟨S128, .f32⟩
  | 25 => ⟨S128, .f32⟩
  | 26 => ⟨S128, .f32⟩
  | 27 => ⟨S1x1600000, .i32⟩
  | 28 => ⟨S1600000, .i32⟩
  | 29 => ⟨S1x1600000, .i32⟩
  | 30 => ⟨S1600000, .i32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S_, .f32⟩
  | 41 => ⟨S100000x128, .f32⟩
  | 42 => ⟨S1600000x1, .i32⟩
  | 43 => ⟨S100000x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S128, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S_, .f32⟩
  | 83 => ⟨S100000x128, .f32⟩
  | 84 => ⟨S1600000x1, .i32⟩
  | 85 => ⟨S100000x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S128, .f32⟩
  | 103 => ⟨S128, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x128, .f32⟩
  | 124 => ⟨S_, .f32⟩
  | 125 => ⟨S100000x128, .f32⟩
  | 126 => ⟨S1600000x1, .i32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S128, .f32⟩
  | 17 => ⟨S128, .f32⟩
  | 18 => ⟨S128, .f32⟩
  | 19 => ⟨S128, .f32⟩
  | 20 => ⟨S1x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S_, .f32⟩
  | 30 => ⟨S64x128, .f32⟩
  | 31 => ⟨S100000x1, .i32⟩
  | 32 => ⟨S64x128, .f32⟩
  | 33 => ⟨S_, .f32⟩
  | 34 => ⟨S100000, .f32⟩
  | 35 => ⟨S_, .f32⟩
  | 36 => ⟨S64, .f32⟩
  | 37 => ⟨S100000x1, .i32⟩
  | 38 => ⟨S64, .f32⟩
  | 39 => ⟨S_, .f32⟩
  | 40 => ⟨S64, .f32⟩
  | 41 => ⟨S64, .f32⟩
  | 42 => ⟨S64x1, .f32⟩
  | 43 => ⟨S64x128, .f32⟩
  | 44 => ⟨S64x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_call0_cst : Ref sig .tc := ⟨.hbm, 49, rfl⟩
abbrev main_call0_v0 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_1 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_call1_cst : Ref sig .tc := ⟨.hbm, 70, rfl⟩
abbrev main_call1_v0 : Ref sig .tc := ⟨.hbm, 71, rfl⟩
abbrev main_v37 : Ref sig .tc := ⟨.hbm, 72, rfl⟩
abbrev main_c_2 : Ref sig .tc := ⟨.hbm, 73, rfl⟩
abbrev main_v38 : Ref sig .tc := ⟨.hbm, 74, rfl⟩
abbrev main_v39 : Ref sig .tc := ⟨.hbm, 75, rfl⟩
abbrev main_c_3 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_4 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_call2_cst : Ref sig .tc := ⟨.hbm, 91, rfl⟩
abbrev main_call2_v0 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_5 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_call3_cst : Ref sig .tc := ⟨.hbm, 112, rfl⟩
abbrev main_call3_v0 : Ref sig .tc := ⟨.hbm, 113, rfl⟩
abbrev main_v71 : Ref sig .tc := ⟨.hbm, 114, rfl⟩
abbrev main_c_6 : Ref sig .tc := ⟨.hbm, 115, rfl⟩
abbrev main_v72 : Ref sig .tc := ⟨.hbm, 116, rfl⟩
abbrev main_v73 : Ref sig .tc := ⟨.hbm, 117, rfl⟩
abbrev main_c_7 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_8 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_call4_cst : Ref sig .tc := ⟨.hbm, 133, rfl⟩
abbrev main_call4_v0 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_9 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_call5_cst : Ref sig .tc := ⟨.hbm, 154, rfl⟩
abbrev main_call5_v0 : Ref sig .tc := ⟨.hbm, 155, rfl⟩
abbrev main_v105 : Ref sig .tc := ⟨.hbm, 156, rfl⟩
abbrev main_cst_10 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_11 : Ref sig .tc := ⟨.hbm, 161, rfl⟩
abbrev main_v109 : Ref sig .tc := ⟨.hbm, 162, rfl⟩
abbrev main_cst_12 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_13 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KernelRun.lean ====
/-
  The kernel program's run with its result named: every weakly fair execution of @main ends with the result buffer at
  the contents the last boundary of the run holds for it — the fold of the four stretches of host operations and the
  three calls' write-backs from the launch memory — and with the argument arrays as launched.
-/
import proofs.«108127_j38001870635069_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, read at the result buffer and at the arguments. -/
theorem run_named : θ_run defs (onTc (τ := τ) (main (F := F))) ⟨m, fun _ => 0, ρ⟩ (fun r => ∀ c : Dev nD,
      r.2.mem ((c.tc : Thread nD τ).loc main_v66) = W7 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v66 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c),
       (h c _ (mem_uc main_arg19 (by decide))).trans (W7_main_arg19 m ρ c),
       (h c _ (mem_uc main_arg20 (by decide))).trans (W7_main_arg20 m ρ c),
       (h c _ (mem_uc main_arg21 (by decide))).trans (W7_main_arg21 m ρ c),
       (h c _ (mem_uc main_arg22 (by decide))).trans (W7_main_arg22 m ρ c),
       (h c _ (mem_uc main_arg23 (by decide))).trans (W7_main_arg23 m ρ c),
       (h c _ (mem_uc main_arg24 (by decide))).trans (W7_main_arg24 m ρ c),
       (h c _ (mem_uc main_arg25 (by decide))).trans (W7_main_arg25 m ρ c),
       (h c _ (mem_uc main_arg26 (by decide))).trans (W7_main_arg26 m ρ c)⟩)

end Cert.KernelIdeal.RunValue

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.LibBroadcast.lean ====
/-
  Small layout operations read at an index: a vector as a row, a row or a vector broadcast down the rows, a vector as
  a column, a column broadcast across the columns, and a splat constant. Generic in the extents.
-/
import Idealize.ShloMosaic.PureOps.Ideal
import Idealize.ShloMosaic.Lib.Pipeline.Value
import Idealize.ShloMosaic.Lib.ValueIdx

noncomputable section

namespace Cert.Layout

open Idealize.ShloMosaic Idealize.ShloMosaic.ValueIdx

variable {α : Type} {m n : Nat}

/-- A vector `[n]` reshaped to a row `[1, n]`, read at `(0, k)`. -/
theorem row_of_vec_apply (x : (⟨1, ![n]⟩ : Shape).Idx → α) (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]; show k.val = 0 * n + k.val; omega)

/-- A vector `[n]` as a row `[1, n]` broadcast down `m` rows, read at `(p, k)`. -/
theorem rows_of_vec_apply (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (k : Fin n) :
    broadcastInDim ⟨2, ![m, n]⟩ ![0, 1] h2 (broadcastInDim ⟨2, ![1, n]⟩ ![1] h1 x) (ix2 p k) = x (ix1 k) := by
  have hk : k.val < n := k.isLt
  refine (broadcastInDim_apply ![0, 1] h2 _ (ix2 p k) (ix2 0 k) (fun a => ?_)).trans
    (broadcastInDim_apply ![1] h1 x (ix2 0 k) (ix1 k) (fun a => ?_))
  · match a with
    | ⟨0, _⟩ => show (0 : ℕ) = if (1 : ℕ) = 1 then 0 else _; rw [if_pos rfl]
    | ⟨1, _⟩ =>
      show k.val = if n = 1 then 0 else k.val
      split
      · omega
      · rfl
  · match a with
    | ⟨0, _⟩ =>
      show k.val = if n = 1 then 0 else k.val
      split
      · omega
      · rfl

/-- A per-row vector `[m]` as a column `[m, 1]`, read at `(e, 0)`. -/
theorem col_of_vec_apply (v : (⟨1, ![m]⟩ : Shape).Idx → α)
    (h : (⟨1, ![m]⟩ : Shape).BroadcastsInDim ⟨2, ![m, 1]⟩ ![0]) (e : Fin m) :
    broadcastInDim ⟨2, ![m, 1]⟩ ![0] h v (ix2 e 0) = v (ix1 e) := by
  have he : e.val < m := e.isLt
  refine broadcastInDim_apply ![0] h v (ix2 e 0) (ix1 e) (fun a => ?_)
  match a with
  | ⟨0, _⟩ =>
    show e.val = if m = 1 then 0 else e.val
    split
    · omega
    · rfl

/-- A column `[m, 1]` broadcast across `n` columns, read at `(e, c)`. -/
theorem cols_of_col_apply (w : (⟨2, ![m, 1]⟩ : Shape).Idx → α)
    (h : (⟨2, ![m, 1]⟩ : Shape).BroadcastsInDim ⟨2, ![m, n]⟩ ![0, 1]) (e : Fin m) (c : Fin n) :
    broadcastInDim ⟨2, ![m, n]⟩ ![0, 1] h w (ix2 e c) = w (ix2 e 0) := by
  have he : e.val < m := e.isLt
  refine broadcastInDim_apply ![0, 1] h w (ix2 e c) (ix2 e 0) (fun a => ?_)
  match a with
  | ⟨0, _⟩ =>
    show e.val = if m = 1 then 0 else e.val
    split
    · omega
    · rfl
  | ⟨1, _⟩ => show (0 : ℕ) = if (1 : ℕ) = 1 then 0 else _; rw [if_pos rfl]

/-- A splat of a float word, read anywhere, is the word read as an extended real. -/
theorem splat_apply {s : Shape} (hb : (⟨0, ![]⟩ : Shape).BroadcastsInDim s (![] : Fin 0 → Fin s.rank)) (w : BitVec 32) (i : s.Idx) :
    broadcastInDim s ![] hb (constant (F := Ideal) ⟨0, ![]⟩ .f32 w) i = Ideal.ofBits .f32 w := rfl

end Cert.Layout

end
-- ==== Proof.LibDenseLayer.lean ====
/-
  One dense layer of a perceptron — a matrix product with a weight matrix, plus a bias row, clamped below at zero — read
  over the extended reals as ONE function (`Cert.MatProd.denseRelu`) in the two spellings it is met in, general in the
  three extents and in the operands' float formats:

    * the kernel's: a matrix product into a zero accumulator, plus the bias ROW `[1, N]` broadcast down the rows, then a
      maximum with a splat zero (`kernel_layer`; without the clamp, entry by entry, `kernel_affine`);
    * the host's: a `dot_general`, plus the bias VECTOR `[N]` laid out as a row and broadcast down the rows (two
      `broadcast_in_dim`s), then a maximum with a broadcast zero constant (`host_layer`; without the clamp,
      `host_affine`).

  The product's dimension record is any record equal to the plain one (rows by contraction times contraction by
  columns); `asRow` lays a vector out as a one-row matrix. No finiteness is asked: both sides are the same sum, term by
  term. Imports LibMatProd, LibBroadcastTo and LibBroadcast, which must be copied with it.
-/
import proofs.«108127_j38001870635069_1_alg».proof.Proof.LibMatProd
import proofs.«108127_j38001870635069_1_alg».proof.Proof.LibBroadcastTo
import proofs.«108127_j38001870635069_1_alg».proof.Proof.LibBroadcast
import Idealize.ShloMosaic.PureOps.Contract
import Idealize.ShloMosaic.Lib.Pipeline.Value

noncomputable section

open scoped BigOperators

namespace Cert.DenseLayer

open Idealize.ShloMosaic Idealize.ShloMosaic.ValueIdx Cert.MatProd

/-- A matrix of extended reals with `M` rows and `N` columns. -/
abbrev Mat (M N : Nat) : Type := (⟨2, ![M, N]⟩ : Shape).Idx → EReal

/-- A vector of length `N` laid out as a one-row matrix. -/
def asRow {N : Nat} (b : (⟨1, ![N]⟩ : Shape).Idx → EReal) : Mat 1 N := fun i => b (ix1 (i 1))

/-- The kernel's product plus bias row: a matrix product into a zero accumulator, plus the bias row broadcast down the rows. -/
theorem kernel_affine {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) (p : Fin M) (q : Fin N) :
    addf (matmul d none a w (constant ⟨2, ![M, N]⟩ .f32 0x00000000#32)) (broadcastTo ⟨2, ![M, N]⟩ b hb) (ix2 p q)
      = prod a w (ix2 p q) + b (ix2 0 q) := by
  subst hd
  show FloatOps.matmul (DotDims.plain M K N) none a w (constant ⟨2, ![M, N]⟩ .f32 0x00000000#32) (ix2 p q)
      + broadcastTo ⟨2, ![M, N]⟩ b hb (ix2 p q) = _
  rw [matmul_plain_zero_apply, Cert.BroadcastTo.row_apply]
  rfl

/-- The kernel's dense layer is `denseRelu`. -/
theorem kernel_layer {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) :
    maximumf (addf (matmul d none a w (constant ⟨2, ![M, N]⟩ .f32 0x00000000#32)) (broadcastTo ⟨2, ![M, N]⟩ b hb))
        (broadcast ⟨2, ![M, N]⟩ (Scalar.ofBits (F := Ideal) .f32 0x00000000#32))
      = denseRelu a w b := by
  funext i
  obtain ⟨p, q, rfl⟩ : ∃ (p : Fin M) (q : Fin N), i = ix2 p q := ⟨i 0, i 1, eq_ix2 i⟩
  show max (addf (matmul d none a w (constant ⟨2, ![M, N]⟩ .f32 0x00000000#32)) (broadcastTo ⟨2, ![M, N]⟩ b hb) (ix2 p q)) _ = _
  rw [kernel_affine d hd a w b hb p q]
  rfl

/-- The host's product plus bias: a `dot_general`, plus the bias vector laid out as a row and broadcast down the rows. -/
theorem host_affine {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral d none a w) (broadcastInDim ⟨2, ![M, N]⟩ ![0, 1] h2 (broadcastInDim ⟨2, ![1, N]⟩ ![1] h1 b)) (ix2 p q)
      = prod a w (ix2 p q) + asRow b (ix2 0 q) := by
  subst hd
  show FloatOps.dotGeneral (DotDims.plain M K N) none .single a w (ix2 p q)
      + broadcastInDim ⟨2, ![M, N]⟩ ![0, 1] h2 (broadcastInDim ⟨2, ![1, N]⟩ ![1] h1 b) (ix2 p q) = _
  rw [dotGeneral_plain_apply, Cert.Layout.rows_of_vec_apply]
  rfl

/-- The host's dense layer is `denseRelu`. -/
theorem host_layer {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ (![] : Fin 0 → Fin 2)) :
    maximumf (addf (Host.dotGeneral d none a w) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = denseRelu a w (asRow b) := by
  funext i
  obtain ⟨p, q, rfl⟩ : ∃ (p : Fin M) (q : Fin N), i = ix2 p q := ⟨i 0, i 1, eq_ix2 i⟩
  show max (addf (Host.dotGeneral d none a w) (broadcastInDim ⟨2, ![M, N]⟩ ![0, 1] h2 (broadcastInDim ⟨2, ![1, N]⟩ ![1] h1 b)) (ix2 p q))
      (broadcastInDim ⟨2, ![M, N]⟩ ![] h0 (constant (F := Ideal) ⟨0, ![]⟩ .f32 0x00000000#32) (ix2 p q)) = _
  rw [host_affine d hd a w b h1 h2 p q, Cert.Layout.splat_apply]
  rfl

end Cert.DenseLayer

end
-- ==== Proof.GinLayer.lean ====
/-
  One graph-isomorphism layer over the extended reals, as ONE function of its arrays, general in the number of rows:
  row `n` of the result is
      relu( ((relu((h n + agg n) · Wa + ba) · Wb + bb) − μ) * (γ * rsqrt(σ² + ε)) + β ),
  `h n + agg n` the node's own features plus the sum over its neighbours, the two products dense layers, and the
  last step a batch normalisation with stored statistics followed by a clamp at zero. Every row depends only on the
  same row of `h` and `agg`, so a block of rows of the result is the layer of that block of rows (`layer_block_eq`).
  `body_eq` reads the vector spelling of the layer (two matrix products into zero accumulators, row broadcasts,
  pointwise operations; a change of float format is the identity on the extended reals) as that function.
-/
import proofs.«108127_j38001870635069_1_alg».proof.Proof.LibDenseLayer

noncomputable section

open scoped BigOperators

namespace Cert.Gin

open Idealize.ShloMosaic Idealize.ShloMosaic.ValueIdx Cert.MatProd Cert.DenseLayer

/-- The layer, index by index. -/
def layer {M : Nat} (h agg : Mat M 128) (wa : Mat 128 128) (ba : Mat 1 128) (wb : Mat 128 128)
    (bb g b mu v : Mat 1 128) : Mat M 128 :=
  fun i => max ((prod (denseRelu (fun j => h j + agg j) wa ba) wb i + bb (ix2 0 (i 1)) - mu (ix2 0 (i 1)))
      * (g (ix2 0 (i 1)) * Ideal.rsqrt (v (ix2 0 (i 1)) + Ideal.ofBits .f32 0x3727C5AC#32)) + b (ix2 0 (i 1)))
    (Ideal.ofBits .f32 0x00000000#32)

/-- Entry `(p, q)` of the layer of a BLOCK of rows is entry `i` of the layer of the whole arrays, when row `p` of the
    two blocks is row `i 0` of the two arrays and `q` is the column `i 1`. -/
theorem layer_block_eq {M M' : Nat} (h agg : Mat M 128) (h' agg' : Mat M' 128) (wa : Mat 128 128) (ba : Mat 1 128)
    (wb : Mat 128 128) (bb g b mu v : Mat 1 128) (p : Fin M') (q : Fin 128) (i : (⟨2, ![M, 128]⟩ : Shape).Idx)
    (h0 : ∀ k : Fin 128, h' (ix2 p k) = h (ix2 (i 0) k)) (h1 : ∀ k : Fin 128, agg' (ix2 p k) = agg (ix2 (i 0) k))
    (hq : q = i 1) :
    layer h' agg' wa ba wb bb g b mu v (ix2 p q) = layer h agg wa ba wb bb g b mu v i := by
  subst hq
  have e : prod (denseRelu (fun j => h' j + agg' j) wa ba) wb (ix2 p (i 1))
      = prod (denseRelu (fun j => h j + agg j) wa ba) wb i := by
    refine prod_block_eq _ wb _ wb p (i 1) i (fun k => ?_) (fun _ => rfl)
    refine denseRelu_block_eq _ wa ba _ wa ba p k (ix2 (i 0) k) (fun k' => ?_) (fun _ => rfl) rfl
    show h' (ix2 p k') + agg' (ix2 p k') = h (ix2 (i 0) k') + agg (ix2 (i 0) k')
    rw [h0 k', h1 k']
  show max ((prod (denseRelu (fun j => h' j + agg' j) wa ba) wb (ix2 p (i 1)) + _ - _) * _ + _) _ = _
  rw [e]
  rfl

/-- The layer's vector spelling is the layer. -/
theorem body_eq {M : Nat} (d : DotDims ⟨2, ![M, 128]⟩ ⟨2, ![128, 128]⟩ ⟨2, ![M, 128]⟩) (hd : d = DotDims.plain M 128 128)
    (hb : (⟨2, ![1, 128]⟩ : Shape).Broadcasts ⟨2, ![M, 128]⟩) (ht : FTy.bf16.bits < FTy.f32.bits)
    (x0 x1 : FVec Ideal ⟨2, ![M, 128]⟩ .f32) (x2 : FVec Ideal ⟨2, ![128, 128]⟩ .f32) (x3 : FVec Ideal ⟨2, ![1, 128]⟩ .f32)
    (x4 : FVec Ideal ⟨2, ![128, 128]⟩ .f32) (x5 x6 x7 x8 x9 : FVec Ideal ⟨2, ![1, 128]⟩ .f32) :
    maximumf (addf (mulf (subf (addf (matmul d none
        (truncf .bf16 (maximumf (addf (matmul d none (truncf .bf16 (addf x0 x1) ht) (truncf .bf16 x2 ht)
            (constant ⟨2, ![M, 128]⟩ .f32 0x00000000#32)) (broadcastTo ⟨2, ![M, 128]⟩ x3 hb))
          (broadcast ⟨2, ![M, 128]⟩ (Scalar.ofBits (F := Ideal) .f32 0x00000000#32))) ht)
        (truncf .bf16 x4 ht) (constant ⟨2, ![M, 128]⟩ .f32 0x00000000#32)) (broadcastTo ⟨2, ![M, 128]⟩ x5 hb))
        (broadcastTo ⟨2, ![M, 128]⟩ x8 hb))
        (broadcastTo ⟨2, ![M, 128]⟩ (mulf x6 (rsqrt (addf x9
          (broadcast ⟨2, ![1, 128]⟩ (Scalar.ofBits (F := Ideal) .f32 0x3727C5AC#32))))) hb))
        (broadcastTo ⟨2, ![M, 128]⟩ x7 hb))
      (broadcast ⟨2, ![M, 128]⟩ (Scalar.ofBits (F := Ideal) .f32 0x00000000#32))
    = layer x0 x1 x2 x3 x4 x5 x6 x7 x8 x9 := by
  rw [kernel_layer d hd]
  funext i
  obtain ⟨p, q, rfl⟩ : ∃ (p : Fin M) (q : Fin 128), i = ix2 p q := ⟨i 0, i 1, eq_ix2 i⟩
  show max ((addf (matmul d none (truncf .bf16 (denseRelu (truncf .bf16 (addf x0 x1) ht) (truncf .bf16 x2 ht) x3) ht)
        (truncf .bf16 x4 ht) (constant ⟨2, ![M, 128]⟩ .f32 0x00000000#32)) (broadcastTo ⟨2, ![M, 128]⟩ x5 hb) (ix2 p q)
      - broadcastTo ⟨2, ![M, 128]⟩ x8 hb (ix2 p q))
      * broadcastTo ⟨2, ![M, 128]⟩ (mulf x6 (rsqrt (addf x9
          (broadcast ⟨2, ![1, 128]⟩ (Scalar.ofBits (F := Ideal) .f32 0x3727C5AC#32))))) hb (ix2 p q)
      + broadcastTo ⟨2, ![M, 128]⟩ x7 hb (ix2 p q)) _ = _
  rw [kernel_affine d hd, Cert.BroadcastTo.row_apply, Cert.BroadcastTo.row_apply, Cert.BroadcastTo.row_apply]
  rfl

/-- The layer's host spelling — two `dot_general`s, each bias and normalisation vector laid out as a row and broadcast
    down the rows, the host's reciprocal square root — is the layer, the vectors laid out as rows. -/
theorem host_eq {M : Nat} (d : DotDims ⟨2, ![M, 128]⟩ ⟨2, ![128, 128]⟩ ⟨2, ![M, 128]⟩) (hd : d = DotDims.plain M 128 128)
    (h1 : (⟨1, ![128]⟩ : Shape).BroadcastsInDim ⟨2, ![1, 128]⟩ ![1])
    (h2 : (⟨2, ![1, 128]⟩ : Shape).BroadcastsInDim ⟨2, ![M, 128]⟩ ![0, 1])
    (h0 : (⟨0, ![]⟩ : Shape).BroadcastsInDim ⟨2, ![M, 128]⟩ (![] : Fin 0 → Fin 2))
    (hs : (⟨0, ![]⟩ : Shape).BroadcastsInDim ⟨1, ![128]⟩ (![] : Fin 0 → Fin 1))
    (h agg : FVec Ideal ⟨2, ![M, 128]⟩ .f32) (wa : FVec Ideal ⟨2, ![128, 128]⟩ .f32) (ba : FVec Ideal ⟨1, ![128]⟩ .f32)
    (wb : FVec Ideal ⟨2, ![128, 128]⟩ .f32) (bb g b mu v : FVec Ideal ⟨1, ![128]⟩ .f32) :
    maximumf (addf (mulf (subf (addf (Host.dotGeneral d none
        (maximumf (addf (Host.dotGeneral d none (addf h agg) wa)
            (broadcastInDim ⟨2, ![M, 128]⟩ ![0, 1] h2 (broadcastInDim ⟨2, ![1, 128]⟩ ![1] h1 ba)))
          (broadcastInDim ⟨2, ![M, 128]⟩ ![] h0 (constant (F := Ideal) ⟨0, ![]⟩ .f32 0x00000000#32))) wb)
        (broadcastInDim ⟨2, ![M, 128]⟩ ![0, 1] h2 (broadcastInDim ⟨2, ![1, 128]⟩ ![1] h1 bb)))
        (broadcastInDim ⟨2, ![M, 128]⟩ ![0, 1] h2 (broadcastInDim ⟨2, ![1, 128]⟩ ![1] h1 mu)))
        (broadcastInDim ⟨2, ![M, 128]⟩ ![0, 1] h2 (broadcastInDim ⟨2, ![1, 128]⟩ ![1] h1
          (mulf g (Host.rsqrt (addf v (broadcastInDim ⟨1, ![128]⟩ ![] hs (constant (F := Ideal) ⟨0, ![]⟩ .f32 0x3727C5AC#32))))))))
        (broadcastInDim ⟨2, ![M, 128]⟩ ![0, 1] h2 (broadcastInDim ⟨2, ![1, 128]⟩ ![1] h1 b)))
      (broadcastInDim ⟨2, ![M, 128]⟩ ![] h0 (constant (F := Ideal) ⟨0, ![]⟩ .f32 0x00000000#32))
    = layer h agg wa (asRow ba) wb (asRow bb) (asRow g) (asRow b) (asRow mu) (asRow v) := by
  rw [host_layer d hd]
  funext i
  obtain ⟨p, q, rfl⟩ : ∃ (p : Fin M) (q : Fin 128), i = ix2 p q := ⟨i 0, i 1, eq_ix2 i⟩
  show max ((addf (Host.dotGeneral d none (denseRelu (addf h agg) wa (asRow ba)) wb)
        (broadcastInDim ⟨2, ![M, 128]⟩ ![0, 1] h2 (broadcastInDim ⟨2, ![1, 128]⟩ ![1] h1 bb)) (ix2 p q)
      - broadcastInDim ⟨2, ![M, 128]⟩ ![0, 1] h2 (broadcastInDim ⟨2, ![1, 128]⟩ ![1] h1 mu) (ix2 p q))
      * broadcastInDim ⟨2, ![M, 128]⟩ ![0, 1] h2 (broadcastInDim ⟨2, ![1, 128]⟩ ![1] h1
          (mulf g (Host.rsqrt (addf v (broadcastInDim ⟨1, ![128]⟩ ![] hs (constant (F := Ideal) ⟨0, ![]⟩ .f32 0x3727C5AC#32)))))) (ix2 p q)
      + broadcastInDim ⟨2, ![M, 128]⟩ ![0, 1] h2 (broadcastInDim ⟨2, ![1, 128]⟩ ![1] h1 b) (ix2 p q))
    (broadcastInDim ⟨2, ![M, 128]⟩ ![] h0 (constant (F := Ideal) ⟨0, ![]⟩ .f32 0x00000000#32) (ix2 p q)) = _
  rw [host_affine d hd, Cert.Layout.rows_of_vec_apply, Cert.Layout.rows_of_vec_apply, Cert.Layout.rows_of_vec_apply,
    Cert.Layout.splat_apply]
  rfl

end Cert.Gin

end
-- ==== Proof.LayerValue0.lean ====
/-
  Kernel call 0 of the three: what it leaves in its output array, as one function of the arrays it finds when it is
  entered. Its body computes one layer (`Cert.Gin.layer`) of its blocks: 4000 rows of the node features and of the
  neighbour sums, and the whole weight, bias and normalisation arrays. Grid point `t` writes back rows
  `4000 t … 4000 t + 3999`; a row of the layer depends on the same row of its two inputs only, so that block is the
  block of the layer of the whole arrays, and the 25 blocks cover the 100000 rows: the output array ends at the layer
  of the arrays at entry.
-/
import proofs.«108127_j38001870635069_1_alg».proof.Proof.Gen.KernelIdeal.Frame
import proofs.«108127_j38001870635069_1_alg».proof.Proof.GinLayer

set_option maxRecDepth 16384

noncomputable section

namespace Cert.KernelIdeal.LayerValue0

open Idealize.ShloMosaic Idealize.ShloMosaic.TcCoe Idealize.ShloMosaic.ValueIdx Idealize.SL.Sem
open Cert.KernelIdeal Cert.KernelIdeal.Gen Cert.Gin
open Idealize.ShloMosaic.Pipeline (Dat)

theorem hz : (![0, 0] : Fin 2 → Nat) = fun _ => 0 := funext fun a => by fin_cases a <;> rfl

/-- The kernel's matrix products are plain ones: rows by contraction times contraction by columns. -/
theorem dot_plain : dot_S4000x128_S128x128_S4000x128_1_0_0_1_n_n = DotDims.plain 4000 128 128 := rfl

/-- What the body stores, from the blocks it loads, is the layer of those blocks. -/
theorem out_eq (x0 x1 : Vec Ideal S4000x128 .f32) (x2 : Vec Ideal S128x128 .f32) (x3 : Vec Ideal S1x128 .f32)
    (x4 : Vec Ideal S128x128 .f32) (x5 x6 x7 x8 x9 : Vec Ideal S1x128 .f32) :
    out0_10 (F := Ideal) x0 x1 x2 x3 x4 x5 x6 x7 x8 x9 = layer (M := 4000) x0 x1 x2 x3 x4 x5 x6 x7 x8 x9 := by
  unfold out0_10
  rw [View.canon_unit_zero hz]
  simp only [View.ld_unit_zero (S := S4000x128) hz, View.ld_unit_zero (S := S128x128) hz, View.ld_unit_zero (S := S1x128) hz]
  unfold k0_pay1 k0_pay2 k0_pay3 k0_pay4 k0_pay5
  simp only [shapeCast_self]
  exact body_eq _ dot_plain _ _ x0 x1 x2 x3 x4 x5 x6 x7 x8 x9

variable (V : (c : Dev nD) → (b : Ref sig .tc) → Buf (Elt Ideal) ((c : Thread nD τ).loc b))

/-- The index maps over the grid: the two row-blocked inputs and the output are at block `(t, 0)`; every other
    window is its whole array, at block `(0, 0)`. -/
theorem idx_facts0 : ∀ t : Fin cfg0.N,
    win0_10.index t (0 : Fin 2) = t.val ∧ win0_10.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

theorem blk0_2 (c : Dev nD) (t : Fin cfg0.N) : iblk0 V c 2 t = V c main_arg3 := by
  obtain ⟨-, -, -, -, -, -, e0, e1, -, -, -, -, -, -, -, -, -, -, -, -, -, -⟩ := idx_facts0 t
  funext y
  show V c main_arg3 (((cfg0.win 2).blk t).view.emb y) = V c main_arg3 y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega
theorem blk0_3 (c : Dev nD) (t : Fin cfg0.N) : iblk0 V c 3 t = V c main_v14 := by
  obtain ⟨-, -, -, -, -, -, -, -, e0, e1, -, -, -, -, -, -, -, -, -, -, -, -⟩ := idx_facts0 t
  funext y
  show V c main_v14 (((cfg0.win 3).blk t).view.emb y) = V c main_v14 y
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega
theorem blk0_4 (c : Dev nD) (t : Fin cfg0.N) : iblk0 V c 4 t = V c main_arg5 := by
  obtain ⟨-, -, -, -, -, -, -, -, -, -, e0, e1, -, -, -, -, -, -, -, -, -, -⟩ := idx_facts0 t
  funext y
  show V c main_arg5 (((cfg0.win 4).blk t).view.emb y) = V c main_arg5 y
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega
theorem blk0_5 (c : Dev nD) (t : Fin cfg0.N) : iblk0 V c 5 t = V c main_v15 := by
  obtain ⟨-, -, -, -, -, -, -, -, -, -, -, -, e0, e1, -, -, -, -, -, -, -, -⟩ := idx_facts0 t
  funext y
  show V c main_v15 (((cfg0.win 5).blk t).view.emb y) = V c main_v15 y
  refine congrArg _ (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega
theorem blk0_6 (c : Dev nD) (t : Fin cfg0.N) : iblk0 V c 6 t = V c main_v16 := by
  obtain ⟨-, -, -, -, -, -, -, -, -, -, -, -, -, -, e0, e1, -, -, -, -, -, -⟩ := idx_facts0 t
  funext y
  show V c main_v16 (((cfg0.win 6).blk t).view.emb y) = V c main_v16 y
  refine congrArg _ (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega
theorem blk0_7 (c : Dev nD) (t : Fin cfg0.N) : iblk0 V c 7 t = V c main_v17 := by
  obtain ⟨-, -, -, -, -, -, -, -, -, -, -, -, -, -, -, -, e0, e1, -, -, -, -⟩ := idx_facts0 t
  funext y
  show V c main_v17 (((cfg0.win 7).blk t).view.emb y) = V c main_v17 y
  refine congrArg _ (funext fun a => Fin.ext ?_)
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega
theorem blk0_8 (c : Dev nD) (t : Fin cfg0.N) : iblk0 V c 8 t = V c main_v18 := by
  obtain ⟨-, -, -, -, -, -, -, -, -, -, -, -, -, -, -, -, -, -, e0, e1, -, -⟩ := idx_facts0 t
  funext y
  show V c main_v18 (((cfg0.win 8).blk t).view.emb y) = V c main_v18 y
  refine congrArg _ (funext fun a => Fin.ext ?_)
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega
theorem blk0_9 (c : Dev nD) (t : Fin cfg0.N) : iblk0 V c 9 t = V c main_v19 := by
  obtain ⟨-, -, -, -, -, -, -, -, -, -, -, -, -, -, -, -, -, -, -, -, e0, e1⟩ := idx_facts0 t
  funext y
  show V c main_v19 (((cfg0.win 9).blk t).view.emb y) = V c main_v19 y
  refine congrArg _ (funext fun a => Fin.ext ?_)
  match a with
  | ⟨0, _⟩ => show win0_9.index t (0 : Fin 2) * 1 + 1 * (y 0).val = (y 0).val; rw [e0]; omega
  | ⟨1, _⟩ => show win0_9.index t (1 : Fin 2) * 128 + 1 * (y 1).val = (y 1).val; rw [e1]; omega

set_option maxHeartbeats 1000000 in
/-- WHAT POINT `t` WRITES BACK is block `t` of the layer of the arrays as the call finds them. -/
theorem flushed_eq (c : Dev nD) (t : Fin cfg0.N) :
    (dat0 (F := Ideal) V c).flushed 10 t = ((cfg0.win 10).blk t).view.read (Elt Ideal)
      (layer (M := 100000) (V c main_arg0) (V c main_v13) (V c main_arg3) (V c main_v14) (V c main_arg5) (V c main_v15) (V c main_v16) (V c main_v17) (V c main_v18) (V c main_v19)) := by
  show (cfg0.win 10).cut (grid0.coords t) ((dat0 V c).after 10 t) = _
  rw [after0_10, out_eq, blk0_2 V c t, blk0_3 V c t, blk0_4 V c t, blk0_5 V c t, blk0_6 V c t, blk0_7 V c t, blk0_8 V c t, blk0_9 V c t]
  obtain ⟨o0, o1, i0, i1, j0, j1, -⟩ := idx_facts0 t
  funext y
  obtain ⟨p, q, rfl⟩ : ∃ (p : Fin 4000) (q : Fin 128), y = ix2 p q := ⟨y 0, y 1, eq_ix2 y⟩
  show layer (M := 4000) (iblk0 V c 0 t) (iblk0 V c 1 t) (V c main_arg3) (V c main_v14) (V c main_arg5) (V c main_v15) (V c main_v16) (V c main_v17) (V c main_v18) (V c main_v19) (ix2 p q)
    = layer (M := 100000) (V c main_arg0) (V c main_v13) (V c main_arg3) (V c main_v14) (V c main_arg5) (V c main_v15) (V c main_v16) (V c main_v17) (V c main_v18) (V c main_v19) (((cfg0.win 10).blk t).view.emb (ix2 p q))
  have r0 : ((((cfg0.win 10).blk t).view.emb (ix2 p q)) 0).val = t.val * 4000 + p.val := by
    show win0_10.index t (0 : Fin 2) * 4000 + 1 * p.val = _; rw [o0]; omega
  have r1 : ((((cfg0.win 10).blk t).view.emb (ix2 p q)) 1).val = q.val := by
    show win0_10.index t (1 : Fin 2) * 128 + 1 * q.val = _; rw [o1]; omega
  refine layer_block_eq (V c main_arg0) (V c main_v13) (iblk0 V c 0 t) (iblk0 V c 1 t) (V c main_arg3) (V c main_v14) (V c main_arg5) (V c main_v15) (V c main_v16) (V c main_v17) (V c main_v18) (V c main_v19) p q _ (fun k => ?_) (fun k => ?_) (Fin.ext r1.symm)
  · show V c main_arg0 (((cfg0.win 0).blk t).view.emb (ix2 p k)) = _
    refine congrArg _ (funext fun a => Fin.ext ?_)
    match a with
    | ⟨0, _⟩ => show win0_0.index t (0 : Fin 2) * 4000 + 1 * p.val = _; rw [i0]; exact (show t.val * 4000 + 1 * p.val = t.val * 4000 + p.val by omega).trans r0.symm
    | ⟨1, _⟩ => show win0_0.index t (1 : Fin 2) * 128 + 1 * k.val = k.val; rw [i1]; omega
  · show V c main_v13 (((cfg0.win 1).blk t).view.emb (ix2 p k)) = _
    refine congrArg _ (funext fun a => Fin.ext ?_)
    match a with
    | ⟨0, _⟩ => show win0_1.index t (0 : Fin 2) * 4000 + 1 * p.val = _; rw [j0]; exact (show t.val * 4000 + 1 * p.val = t.val * 4000 + p.val by omega).trans r0.symm
    | ⟨1, _⟩ => show win0_1.index t (1 : Fin 2) * 128 + 1 * k.val = k.val; rw [j1]; omega

/-- An index of the output array is in point `t`'s block iff each coordinate is in the block's range on its axis. -/
theorem mem_blk (t : Fin cfg0.N) (i : S100000x128.Idx) :
    i ∈ ((cfg0.win 10).blk t).view.set ↔ ∀ a : Fin 2, win0_10.index t a * S4000x128.size a ≤ (i a).val ∧ (i a).val < win0_10.index t a * S4000x128.size a + S4000x128.size a := by
  show i ∈ ((View.whole main_v20).slice (win0_10.rect t)).set ↔ _
  rw [View.set_slice_whole, Rect.mem_set_unit]
  exact Iff.rfl

/-- Row `n` of the output array is written back by point `n / 4000`. -/
theorem cover (i : S100000x128.Idx) :
    ∃ t : Fin cfg0.N, (cfg0.win 10).flush t = true ∧ i ∈ ((cfg0.win 10).blk t).view.set := by
  have hi0 : (i 0).val < 100000 := (i 0).isLt
  have hi1 : (i 1).val < 128 := (i 1).isLt
  have hN : grid0.N = 25 := N_0
  refine ⟨⟨(i 0).val / 4000, by show _ < grid0.N; rw [hN]; omega⟩, flush0_10 _, ?_⟩
  rw [mem_blk]
  obtain ⟨o0, o1, -⟩ := idx_facts0 ⟨(i 0).val / 4000, by show _ < grid0.N; rw [hN]; omega⟩
  intro a
  match a with
  | ⟨0, _⟩ =>
    show win0_10.index _ (0 : Fin 2) * 4000 ≤ (i 0).val ∧ (i 0).val < win0_10.index _ (0 : Fin 2) * 4000 + 4000
    rw [o0]; show (i 0).val / 4000 * 4000 ≤ (i 0).val ∧ (i 0).val < (i 0).val / 4000 * 4000 + 4000; omega
  | ⟨1, _⟩ =>
    show win0_10.index _ (1 : Fin 2) * 128 ≤ (i 1).val ∧ (i 1).val < win0_10.index _ (1 : Fin 2) * 128 + 128
    rw [o1]; omega

/-- THE OUTPUT ARRAY after the call: the layer of the arrays the call finds when it is entered. -/
theorem final (c : Dev nD) : (dat0 (F := Ideal) V c).arrAt 10 cfg0.N
    = layer (M := 100000) (V c main_arg0) (V c main_v13) (V c main_arg3) (V c main_v14) (V c main_arg5) (V c main_v15) (V c main_v16) (V c main_v17) (V c main_v18) (V c main_v19) :=
  (dat0 V c).arrAt_eq_of_cover 10 _ (fun t _ => flushed_eq V c t) cover

end Cert.KernelIdeal.LayerValue0

end
-- ==== Proof.LayerValue1.lean ====
/-
  Kernel call 1 of the three: what it leaves in its output array, as one function of the arrays it finds when it is
  entered. Its body computes one layer (`Cert.Gin.layer`) of its blocks: 4000 rows of the node features and of the
  neighbour sums, and the whole weight, bias and normalisation arrays. Grid point `t` writes back rows
  `4000 t … 4000 t + 3999`; a row of the layer depends on the same row of its two inputs only, so that block is the
  block of the layer of the whole arrays, and the 25 blocks cover the 100000 rows: the output array ends at the layer
  of the arrays at entry.
-/
import proofs.«108127_j38001870635069_1_alg».proof.Proof.Gen.KernelIdeal.Frame
import proofs.«108127_j38001870635069_1_alg».proof.Proof.GinLayer

set_option maxRecDepth 16384

noncomputable section

namespace Cert.KernelIdeal.LayerValue1

open Idealize.ShloMosaic Idealize.ShloMosaic.TcCoe Idealize.ShloMosaic.ValueIdx Idealize.SL.Sem
open Cert.KernelIdeal Cert.KernelIdeal.Gen Cert.Gin
open Idealize.ShloMosaic.Pipeline (Dat)

theorem hz : (![0, 0] : Fin 2 → Nat) = fun _ => 0 := funext fun a => by fin_cases a <;> rfl

/-- The kernel's matrix products are plain ones: rows by contraction times contraction by columns. -/
theorem dot_plain : dot_S4000x128_S128x128_S4000x128_1_0_0_1_n_n = DotDims.plain 4000 128 128 := rfl

/-- What the body stores, from the blocks it loads, is the layer of those blocks. -/
theorem out_eq (x0 x1 : Vec Ideal S4000x128 .f32) (x2 : Vec Ideal S128x128 .f32) (x3 : Vec Ideal S1x128 .f32)
    (x4 : Vec Ideal S128x128 .f32) (x5 x6 x7 x8 x9 : Vec Ideal S1x128 .f32) :
    out1_10 (F := Ideal) x0 x1 x2 x3 x4 x5 x6 x7 x8 x9 = layer (M := 4000) x0 x1 x2 x3 x4 x5 x6 x7 x8 x9 := by
  unfold out1_10
  rw [View.canon_unit_zero hz]
  simp only [View.ld_unit_zero (S := S4000x128) hz, View.ld_unit_zero (S := S128x128) hz, View.ld_unit_zero (S := S1x128) hz]
  unfold k1_pay1 k1_pay2 k1_pay3 k1_pay4 k1_pay5
  simp only [shapeCast_self]
  exact body_eq _ dot_plain _ _ x0 x1 x2 x3 x4 x5 x6 x7 x8 x9

variable (V : (c : Dev nD) → (b : Ref sig .tc) → Buf (Elt Ideal) ((c : Thread nD τ).loc b))

/-- The index maps over the grid: the two row-blocked inputs and the output are at block `(t, 0)`; every other
    window is its whole array, at block `(0, 0)`. -/
theorem idx_facts1 : ∀ t : Fin cfg1.N,
    win1_10.index t (0 : Fin 2) = t.val ∧ win1_10.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

theorem blk1_2 (c : Dev nD) (t : Fin cfg1.N) : iblk1 V c 2 t = V c main_arg7 := by
  obtain ⟨-, -, -, -, -, -, e0, e1, -, -, -, -, -, -, -, -, -, -, -, -, -, -⟩ := idx_facts1 t
  funext y
  show V c main_arg7 (((cfg1.win 2).blk t).view.emb y) = V c main_arg7 y
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega
theorem blk1_3 (c : Dev nD) (t : Fin cfg1.N) : iblk1 V c 3 t = V c main_v31 := by
  obtain ⟨-, -, -, -, -, -, -, -, e0, e1, -, -, -, -, -, -, -, -, -, -, -, -⟩ := idx_facts1 t
  funext y
  show V c main_v31 (((cfg1.win 3).blk t).view.emb y) = V c main_v31 y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega
theorem blk1_4 (c : Dev nD) (t : Fin cfg1.N) : iblk1 V c 4 t = V c main_arg9 := by
  obtain ⟨-, -, -, -, -, -, -, -, -, -, e0, e1, -, -, -, -, -, -, -, -, -, -⟩ := idx_facts1 t
  funext y
  show V c main_arg9 (((cfg1.win 4).blk t).view.emb y) = V c main_arg9 y
  refine congrArg _ (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega
theorem blk1_5 (c : Dev nD) (t : Fin cfg1.N) : iblk1 V c 5 t = V c main_v32 := by
  obtain ⟨-, -, -, -, -, -, -, -, -, -, -, -, e0, e1, -, -, -, -, -, -, -, -⟩ := idx_facts1 t
  funext y
  show V c main_v32 (((cfg1.win 5).blk t).view.emb y) = V c main_v32 y
  refine congrArg _ (funext fun a => Fin.ext ?_)
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega
theorem blk1_6 (c : Dev nD) (t : Fin cfg1.N) : iblk1 V c 6 t = V c main_v33 := by
  obtain ⟨-, -, -, -, -, -, -, -, -, -, -, -, -, -, e0, e1, -, -, -, -, -, -⟩ := idx_facts1 t
  funext y
  show V c main_v33 (((cfg1.win 6).blk t).view.emb y) = V c main_v33 y
  refine congrArg _ (funext fun a => Fin.ext ?_)
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega
theorem blk1_7 (c : Dev nD) (t : Fin cfg1.N) : iblk1 V c 7 t = V c main_v34 := by
  obtain ⟨-, -, -, -, -, -, -, -, -, -, -, -, -, -, -, -, e0, e1, -, -, -, -⟩ := idx_facts1 t
  funext y
  show V c main_v34 (((cfg1.win 7).blk t).view.emb y) = V c main_v34 y
  refine congrArg _ (funext fun a => Fin.ext ?_)
  match a with
  | ⟨0, _⟩ => show win1_7.index t (0 : Fin 2) * 1 + 1 * (y 0).val = (y 0).val; rw [e0]; omega
  | ⟨1, _⟩ => show win1_7.index t (1 : Fin 2) * 128 + 1 * (y 1).val = (y 1).val; rw [e1]; omega
theorem blk1_8 (c : Dev nD) (t : Fin cfg1.N) : iblk1 V c 8 t = V c main_v35 := by
  obtain ⟨-, -, -, -, -, -, -, -, -, -, -, -, -, -, -, -, -, -, e0, e1, -, -⟩ := idx_facts1 t
  funext y
  show V c main_v35 (((cfg1.win 8).blk t).view.emb y) = V c main_v35 y
  refine congrArg _ (funext fun a => Fin.ext ?_)
  match a with
  | ⟨0, _⟩ => show win1_8.index t (0 : Fin 2) * 1 + 1 * (y 0).val = (y 0).val; rw [e0]; omega
  | ⟨1, _⟩ => show win1_8.index t (1 : Fin 2) * 128 + 1 * (y 1).val = (y 1).val; rw [e1]; omega
theorem blk1_9 (c : Dev nD) (t : Fin cfg1.N) : iblk1 V c 9 t = V c main_v36 := by
  obtain ⟨-, -, -, -, -, -, -, -, -, -, -, -, -, -, -, -, -, -, -, -, e0, e1⟩ := idx_facts1 t
  funext y
  show V c main_v36 (((cfg1.win 9).blk t).view.emb y) = V c main_v36 y
  refine congrArg _ (funext fun a => Fin.ext ?_)
  match a with
  | ⟨0, _⟩ => show win1_9.index t (0 : Fin 2) * 1 + 1 * (y 0).val = (y 0).val; rw [e0]; omega
  | ⟨1, _⟩ => show win1_9.index t (1 : Fin 2) * 128 + 1 * (y 1).val = (y 1).val; rw [e1]; omega

set_option maxHeartbeats 1000000 in
/-- WHAT POINT `t` WRITES BACK is block `t` of the layer of the arrays as the call finds them. -/
theorem flushed_eq (c : Dev nD) (t : Fin cfg1.N) :
    (dat1 (F := Ideal) V c).flushed 10 t = ((cfg1.win 10).blk t).view.read (Elt Ideal)
      (layer (M := 100000) (V c main_v20) (V c main_v30) (V c main_arg7) (V c main_v31) (V c main_arg9) (V c main_v32) (V c main_v33) (V c main_v34) (V c main_v35) (V c main_v36)) := by
  show (cfg1.win 10).cut (grid1.coords t) ((dat1 V c).after 10 t) = _
  rw [after1_10, out_eq, blk1_2 V c t, blk1_3 V c t, blk1_4 V c t, blk1_5 V c t, blk1_6 V c t, blk1_7 V c t, blk1_8 V c t, blk1_9 V c t]
  obtain ⟨o0, o1, i0, i1, j0, j1, -⟩ := idx_facts1 t
  funext y
  obtain ⟨p, q, rfl⟩ : ∃ (p : Fin 4000) (q : Fin 128), y = ix2 p q := ⟨y 0, y 1, eq_ix2 y⟩
  show layer (M := 4000) (iblk1 V c 0 t) (iblk1 V c 1 t) (V c main_arg7) (V c main_v31) (V c main_arg9) (V c main_v32) (V c main_v33) (V c main_v34) (V c main_v35) (V c main_v36) (ix2 p q)
    = layer (M := 100000) (V c main_v20) (V c main_v30) (V c main_arg7) (V c main_v31) (V c main_arg9) (V c main_v32) (V c main_v33) (V c main_v34) (V c main_v35) (V c main_v36) (((cfg1.win 10).blk t).view.emb (ix2 p q))
  have r0 : ((((cfg1.win 10).blk t).view.emb (ix2 p q)) 0).val = t.val * 4000 + p.val := by
    show win1_10.index t (0 : Fin 2) * 4000 + 1 * p.val = _; rw [o0]; omega
  have r1 : ((((cfg1.win 10).blk t).view.emb (ix2 p q)) 1).val = q.val := by
    show win1_10.index t (1 : Fin 2) * 128 + 1 * q.val = _; rw [o1]; omega
  refine layer_block_eq (V c main_v20) (V c main_v30) (iblk1 V c 0 t) (iblk1 V c 1 t) (V c main_arg7) (V c main_v31) (V c main_arg9) (V c main_v32) (V c main_v33) (V c main_v34) (V c main_v35) (V c main_v36) p q _ (fun k => ?_) (fun k => ?_) (Fin.ext r1.symm)
  · show V c main_v20 (((cfg1.win 0).blk t).view.emb (ix2 p k)) = _
    refine congrArg _ (funext fun a => Fin.ext ?_)
    match a with
    | ⟨0, _⟩ => show win1_0.index t (0 : Fin 2) * 4000 + 1 * p.val = _; rw [i0]; exact (show t.val * 4000 + 1 * p.val = t.val * 4000 + p.val by omega).trans r0.symm
    | ⟨1, _⟩ => show win1_0.index t (1 : Fin 2) * 128 + 1 * k.val = k.val; rw [i1]; omega
  · show V c main_v30 (((cfg1.win 1).blk t).view.emb (ix2 p k)) = _
    refine congrArg _ (funext fun a => Fin.ext ?_)
    match a with
    | ⟨0, _⟩ => show win1_1.index t (0 : Fin 2) * 4000 + 1 * p.val = _; rw [j0]; exact (show t.val * 4000 + 1 * p.val = t.val * 4000 + p.val by omega).trans r0.symm
    | ⟨1, _⟩ => show win1_1.index t (1 : Fin 2) * 128 + 1 * k.val = k.val; rw [j1]; omega

/-- An index of the output array is in point `t`'s block iff each coordinate is in the block's range on its axis. -/
theorem mem_blk (t : Fin cfg1.N) (i : S100000x128.Idx) :
    i ∈ ((cfg1.win 10).blk t).view.set ↔ ∀ a : Fin 2, win1_10.index t a * S4000x128.size a ≤ (i a).val ∧ (i a).val < win1_10.index t a * S4000x128.size a + S4000x128.size a := by
  show i ∈ ((View.whole main_v37).slice (win1_10.rect t)).set ↔ _
  rw [View.set_slice_whole, Rect.mem_set_unit]
  exact Iff.rfl

/-- Row `n` of the output array is written back by point `n / 4000`. -/
theorem cover (i : S100000x128.Idx) :
    ∃ t : Fin cfg1.N, (cfg1.win 10).flush t = true ∧ i ∈ ((cfg1.win 10).blk t).view.set := by
  have hi0 : (i 0).val < 100000 := (i 0).isLt
  have hi1 : (i 1).val < 128 := (i 1).isLt
  have hN : grid1.N = 25 := N_1
  refine ⟨⟨(i 0).val / 4000, by show _ < grid1.N; rw [hN]; omega⟩, flush1_10 _, ?_⟩
  rw [mem_blk]
  obtain ⟨o0, o1, -⟩ := idx_facts1 ⟨(i 0).val / 4000, by show _ < grid1.N; rw [hN]; omega⟩
  intro a
  match a with
  | ⟨0, _⟩ =>
    show win1_10.index _ (0 : Fin 2) * 4000 ≤ (i 0).val ∧ (i 0).val < win1_10.index _ (0 : Fin 2) * 4000 + 4000
    rw [o0]; show (i 0).val / 4000 * 4000 ≤ (i 0).val ∧ (i 0).val < (i 0).val / 4000 * 4000 + 4000; omega
  | ⟨1, _⟩ =>
    show win1_10.index _ (1 : Fin 2) * 128 ≤ (i 1).val ∧ (i 1).val < win1_10.index _ (1 : Fin 2) * 128 + 128
    rw [o1]; omega

/-- THE OUTPUT ARRAY after the call: the layer of the arrays the call finds when it is entered. -/
theorem final (c : Dev nD) : (dat1 (F := Ideal) V c).arrAt 10 cfg1.N
    = layer (M := 100000) (V c main_v20) (V c main_v30) (V c main_arg7) (V c main_v31) (V c main_arg9) (V c main_v32) (V c main_v33) (V c main_v34) (V c main_v35) (V c main_v36) :=
  (dat1 V c).arrAt_eq_of_cover 10 _ (fun t _ => flushed_eq V c t) cover

end Cert.KernelIdeal.LayerValue1

end
-- ==== Proof.LayerValue2.lean ====
/-
  Kernel call 2 of the three: what it leaves in its output array, as one function of the arrays it finds when it is
  entered. Its body computes one layer (`Cert.Gin.layer`) of its blocks: 4000 rows of the node features and of the
  neighbour sums, and the whole weight, bias and normalisation arrays. Grid point `t` writes back rows
  `4000 t … 4000 t + 3999`; a row of the layer depends on the same row of its two inputs only, so that block is the
  block of the layer of the whole arrays, and the 25 blocks cover the 100000 rows: the output array ends at the layer
  of the arrays at entry.
-/
import proofs.«108127_j38001870635069_1_alg».proof.Proof.Gen.KernelIdeal.Frame
import proofs.«108127_j38001870635069_1_alg».proof.Proof.GinLayer

set_option maxRecDepth 16384

noncomputable section

namespace Cert.KernelIdeal.LayerValue2

open Idealize.ShloMosaic Idealize.ShloMosaic.TcCoe Idealize.ShloMosaic.ValueIdx Idealize.SL.Sem
open Cert.KernelIdeal Cert.KernelIdeal.Gen Cert.Gin
open Idealize.ShloMosaic.Pipeline (Dat)

theorem hz : (![0, 0] : Fin 2 → Nat) = fun _ => 0 := funext fun a => by fin_cases a <;> rfl

/-- The kernel's matrix products are plain ones: rows by contraction times contraction by columns. -/
theorem dot_plain : dot_S4000x128_S128x128_S4000x128_1_0_0_1_n_n = DotDims.plain 4000 128 128 := rfl

/-- What the body stores, from the blocks it loads, is the layer of those blocks. -/
theorem out_eq (x0 x1 : Vec Ideal S4000x128 .f32) (x2 : Vec Ideal S128x128 .f32) (x3 : Vec Ideal S1x128 .f32)
    (x4 : Vec Ideal S128x128 .f32) (x5 x6 x7 x8 x9 : Vec Ideal S1x128 .f32) :
    out2_10 (F := Ideal) x0 x1 x2 x3 x4 x5 x6 x7 x8 x9 = layer (M := 4000) x0 x1 x2 x3 x4 x5 x6 x7 x8 x9 := by
  unfold out2_10
  rw [View.canon_unit_zero hz]
  simp only [View.ld_unit_zero (S := S4000x128) hz, View.ld_unit_zero (S := S128x128) hz, View.ld_unit_zero (S := S1x128) hz]
  unfold k2_pay1 k2_pay2 k2_pay3 k2_pay4 k2_pay5
  simp only [shapeCast_self]
  exact body_eq _ dot_plain _ _ x0 x1 x2 x3 x4 x5 x6 x7 x8 x9

variable (V : (c : Dev nD) → (b : Ref sig .tc) → Buf (Elt Ideal) ((c : Thread nD τ).loc b))

/-- The index maps over the grid: the two row-blocked inputs and the output are at block `(t, 0)`; every other
    window is its whole array, at block `(0, 0)`. -/
theorem idx_facts2 : ∀ t : Fin cfg2.N,
    win2_10.index t (0 : Fin 2) = t.val ∧ win2_10.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0 :=
  (by decide +kernel : ∀ t : Fin grid2.N, _)

theorem blk2_2 (c : Dev nD) (t : Fin cfg2.N) : iblk2 V c 2 t = V c main_arg11 := by
  obtain ⟨-, -, -, -, -, -, e0, e1, -, -, -, -, -, -, -, -, -, -, -, -, -, -⟩ := idx_facts2 t
  funext y
  show V c main_arg11 (((cfg2.win 2).blk t).view.emb y) = V c main_arg11 y
  refine congrArg _ (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega
theorem blk2_3 (c : Dev nD) (t : Fin cfg2.N) : iblk2 V c 3 t = V c main_v48 := by
  obtain ⟨-, -, -, -, -, -, -, -, e0, e1, -, -, -, -, -, -, -, -, -, -, -, -⟩ := idx_facts2 t
  funext y
  show V c main_v48 (((cfg2.win 3).blk t).view.emb y) = V c main_v48 y
  refine congrArg _ (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega
theorem blk2_4 (c : Dev nD) (t : Fin cfg2.N) : iblk2 V c 4 t = V c main_arg13 := by
  obtain ⟨-, -, -, -, -, -, -, -, -, -, e0, e1, -, -, -, -, -, -, -, -, -, -⟩ := idx_facts2 t
  funext y
  show V c main_arg13 (((cfg2.win 4).blk t).view.emb y) = V c main_arg13 y
  refine congrArg _ (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega
theorem blk2_5 (c : Dev nD) (t : Fin cfg2.N) : iblk2 V c 5 t = V c main_v49 := by
  obtain ⟨-, -, -, -, -, -, -, -, -, -, -, -, e0, e1, -, -, -, -, -, -, -, -⟩ := idx_facts2 t
  funext y
  show V c main_v49 (((cfg2.win 5).blk t).view.emb y) = V c main_v49 y
  refine congrArg _ (funext fun a => Fin.ext ?_)
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega
theorem blk2_6 (c : Dev nD) (t : Fin cfg2.N) : iblk2 V c 6 t = V c main_v50 := by
  obtain ⟨-, -, -, -, -, -, -, -, -, -, -, -, -, -, e0, e1, -, -, -, -, -, -⟩ := idx_facts2 t
  funext y
  show V c main_v50 (((cfg2.win 6).blk t).view.emb y) = V c main_v50 y
  refine congrArg _ (funext fun a => Fin.ext ?_)
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega
theorem blk2_7 (c : Dev nD) (t : Fin cfg2.N) : iblk2 V c 7 t = V c main_v51 := by
  obtain ⟨-, -, -, -, -, -, -, -, -, -, -, -, -, -, -, -, e0, e1, -, -, -, -⟩ := idx_facts2 t
  funext y
  show V c main_v51 (((cfg2.win 7).blk t).view.emb y) = V c main_v51 y
  refine congrArg _ (funext fun a => Fin.ext ?_)
  match a with
  | ⟨0, _⟩ => show win2_7.index t (0 : Fin 2) * 1 + 1 * (y 0).val = (y 0).val; rw [e0]; omega
  | ⟨1, _⟩ => show win2_7.index t (1 : Fin 2) * 128 + 1 * (y 1).val = (y 1).val; rw [e1]; omega
theorem blk2_8 (c : Dev nD) (t : Fin cfg2.N) : iblk2 V c 8 t = V c main_v52 := by
  obtain ⟨-, -, -, -, -, -, -, -, -, -, -, -, -, -, -, -, -, -, e0, e1, -, -⟩ := idx_facts2 t
  funext y
  show V c main_v52 (((cfg2.win 8).blk t).view.emb y) = V c main_v52 y
  refine congrArg _ (funext fun a => Fin.ext ?_)
  match a with
  | ⟨0, _⟩ => show win2_8.index t (0 : Fin 2) * 1 + 1 * (y 0).val = (y 0).val; rw [e0]; omega
  | ⟨1, _⟩ => show win2_8.index t (1 : Fin 2) * 128 + 1 * (y 1).val = (y 1).val; rw [e1]; omega
theorem blk2_9 (c : Dev nD) (t : Fin cfg2.N) : iblk2 V c 9 t = V c main_v53 := by
  obtain ⟨-, -, -, -, -, -, -, -, -, -, -, -, -, -, -, -, -, -, -, -, e0, e1⟩ := idx_facts2 t
  funext y
  show V c main_v53 (((cfg2.win 9).blk t).view.emb y) = V c main_v53 y
  refine congrArg _ (funext fun a => Fin.ext ?_)
  match a with
  | ⟨0, _⟩ => show win2_9.index t (0 : Fin 2) * 1 + 1 * (y 0).val = (y 0).val; rw [e0]; omega
  | ⟨1, _⟩ => show win2_9.index t (1 : Fin 2) * 128 + 1 * (y 1).val = (y 1).val; rw [e1]; omega

set_option maxHeartbeats 1000000 in
/-- WHAT POINT `t` WRITES BACK is block `t` of the layer of the arrays as the call finds them. -/
theorem flushed_eq (c : Dev nD) (t : Fin cfg2.N) :
    (dat2 (F := Ideal) V c).flushed 10 t = ((cfg2.win 10).blk t).view.read (Elt Ideal)
      (layer (M := 100000) (V c main_v37) (V c main_v47) (V c main_arg11) (V c main_v48) (V c main_arg13) (V c main_v49) (V c main_v50) (V c main_v51) (V c main_v52) (V c main_v53)) := by
  show (cfg2.win 10).cut (grid2.coords t) ((dat2 V c).after 10 t) = _
  rw [after2_10, out_eq, blk2_2 V c t, blk2_3 V c t, blk2_4 V c t, blk2_5 V c t, blk2_6 V c t, blk2_7 V c t, blk2_8 V c t, blk2_9 V c t]
  obtain ⟨o0, o1, i0, i1, j0, j1, -⟩ := idx_facts2 t
  funext y
  obtain ⟨p, q, rfl⟩ : ∃ (p : Fin 4000) (q : Fin 128), y = ix2 p q := ⟨y 0, y 1, eq_ix2 y⟩
  show layer (M := 4000) (iblk2 V c 0 t) (iblk2 V c 1 t) (V c main_arg11) (V c main_v48) (V c main_arg13) (V c main_v49) (V c main_v50) (V c main_v51) (V c main_v52) (V c main_v53) (ix2 p q)
    = layer (M := 100000) (V c main_v37) (V c main_v47) (V c main_arg11) (V c main_v48) (V c main_arg13) (V c main_v49) (V c main_v50) (V c main_v51) (V c main_v52) (V c main_v53) (((cfg2.win 10).blk t).view.emb (ix2 p q))
  have r0 : ((((cfg2.win 10).blk t).view.emb (ix2 p q)) 0).val = t.val * 4000 + p.val := by
    show win2_10.index t (0 : Fin 2) * 4000 + 1 * p.val = _; rw [o0]; omega
  have r1 : ((((cfg2.win 10).blk t).view.emb (ix2 p q)) 1).val = q.val := by
    show win2_10.index t (1 : Fin 2) * 128 + 1 * q.val = _; rw [o1]; omega
  refine layer_block_eq (V c main_v37) (V c main_v47) (iblk2 V c 0 t) (iblk2 V c 1 t) (V c main_arg11) (V c main_v48) (V c main_arg13) (V c main_v49) (V c main_v50) (V c main_v51) (V c main_v52) (V c main_v53) p q _ (fun k => ?_) (fun k => ?_) (Fin.ext r1.symm)
  · show V c main_v37 (((cfg2.win 0).blk t).view.emb (ix2 p k)) = _
    refine congrArg _ (funext fun a => Fin.ext ?_)
    match a with
    | ⟨0, _⟩ => show win2_0.index t (0 : Fin 2) * 4000 + 1 * p.val = _; rw [i0]; exact (show t.val * 4000 + 1 * p.val = t.val * 4000 + p.val by omega).trans r0.symm
    | ⟨1, _⟩ => show win2_0.index t (1 : Fin 2) * 128 + 1 * k.val = k.val; rw [i1]; omega
  · show V c main_v47 (((cfg2.win 1).blk t).view.emb (ix2 p k)) = _
    refine congrArg _ (funext fun a => Fin.ext ?_)
    match a with
    | ⟨0, _⟩ => show win2_1.index t (0 : Fin 2) * 4000 + 1 * p.val = _; rw [j0]; exact (show t.val * 4000 + 1 * p.val = t.val * 4000 + p.val by omega).trans r0.symm
    | ⟨1, _⟩ => show win2_1.index t (1 : Fin 2) * 128 + 1 * k.val = k.val; rw [j1]; omega

/-- An index of the output array is in point `t`'s block iff each coordinate is in the block's range on its axis. -/
theorem mem_blk (t : Fin cfg2.N) (i : S100000x128.Idx) :
    i ∈ ((cfg2.win 10).blk t).view.set ↔ ∀ a : Fin 2, win2_10.index t a * S4000x128.size a ≤ (i a).val ∧ (i a).val < win2_10.index t a * S4000x128.size a + S4000x128.size a := by
  show i ∈ ((View.whole main_v54).slice (win2_10.rect t)).set ↔ _
  rw [View.set_slice_whole, Rect.mem_set_unit]
  exact Iff.rfl

/-- Row `n` of the output array is written back by point `n / 4000`. -/
theorem cover (i : S100000x128.Idx) :
    ∃ t : Fin cfg2.N, (cfg2.win 10).flush t = true ∧ i ∈ ((cfg2.win 10).blk t).view.set := by
  have hi0 : (i 0).val < 100000 := (i 0).isLt
  have hi1 : (i 1).val < 128 := (i 1).isLt
  have hN : grid2.N = 25 := N_2
  refine ⟨⟨(i 0).val / 4000, by show _ < grid2.N; rw [hN]; omega⟩, flush2_10 _, ?_⟩
  rw [mem_blk]
  obtain ⟨o0, o1, -⟩ := idx_facts2 ⟨(i 0).val / 4000, by show _ < grid2.N; rw [hN]; omega⟩
  intro a
  match a with
  | ⟨0, _⟩ =>
    show win2_10.index _ (0 : Fin 2) * 4000 ≤ (i 0).val ∧ (i 0).val < win2_10.index _ (0 : Fin 2) * 4000 + 4000
    rw [o0]; show (i 0).val / 4000 * 4000 ≤ (i 0).val ∧ (i 0).val < (i 0).val / 4000 * 4000 + 4000; omega
  | ⟨1, _⟩ =>
    show win2_10.index _ (1 : Fin 2) * 128 ≤ (i 1).val ∧ (i 1).val < win2_10.index _ (1 : Fin 2) * 128 + 128
    rw [o1]; omega

/-- THE OUTPUT ARRAY after the call: the layer of the arrays the call finds when it is entered. -/
theorem final (c : Dev nD) : (dat2 (F := Ideal) V c).arrAt 10 cfg2.N
    = layer (M := 100000) (V c main_v37) (V c main_v47) (V c main_arg11) (V c main_v48) (V c main_arg13) (V c main_v49) (V c main_v50) (V c main_v51) (V c main_v52) (V c main_v53) :=
  (dat2 V c).arrAt_eq_of_cover 10 _ (fun t _ => flushed_eq V c t) cover

end Cert.KernelIdeal.LayerValue2

end
-- ==== Proof.GinModel.lean ====
/-
  The whole network over the extended reals as ONE function of the arguments. With `src` and `dst` the two rows of the
  edge table, a neighbour sum is `agg h n = ∑ over the edges e with dst e = n of h (src e)` (a gather of rows followed by
  a scatter-add into zeros: kept here as those two host operations, never opened, since both programs apply them to the
  same arrays); a step is one layer (`Cert.Gin.layer`) of `h` and its neighbour sums; three steps are followed by the
  mean over each graph of the batch (a scatter-add of the rows by graph number, divided by the graph's node count
  clamped below at one).
-/
import proofs.«108127_j38001870635069_1_alg».proof.Proof.Gen.KernelIdeal
import proofs.«108127_j38001870635069_1_alg».proof.Proof.GinLayer

noncomputable section

namespace Cert.Gin

open Idealize.ShloMosaic Idealize.ShloMosaic.ValueIdx Cert.MatProd Cert.DenseLayer Cert.KernelIdeal Cert.KernelIdeal.Facts₀

/-- A vector of node or edge numbers. -/
abbrev IVec (s : Shape) : Type := (⟨s, .i32⟩ : BufTy).Contents (Elt Ideal)

/-- The sources of the edges: row 0 of the edge table. -/
def srcRow (e : IVec S2x1600000) : IVec S1600000 :=
  shapeCast S1600000 (extractStridedSlice S1x1600000 ![0, 0] e slices_S2x1600000_S1x1600000_0_0) shapeCasts_S1x1600000_S1600000

/-- The targets of the edges: row 1 of the edge table. -/
def dstRow (e : IVec S2x1600000) : IVec S1600000 :=
  shapeCast S1600000 (extractStridedSlice S1x1600000 ![1, 0] e slices_S2x1600000_S1x1600000_1_0) shapeCasts_S1x1600000_S1600000

/-- The neighbour sums: the rows of `h` at the edges' sources (a negative source wrapped round once), added into
    zeros at the edges' targets. -/
def agg (src dst : IVec S1600000) (h : Mat 100000 128) : Mat 100000 128 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- One step: the layer of `h` and its neighbour sums, the biases and the normalisation's four vectors laid out as rows. -/
def step (src dst : IVec S1600000) (h : Mat 100000 128) (wa : Mat 128 128) (ba : (⟨1, ![128]⟩ : Shape).Idx → EReal)
    (wb : Mat 128 128) (bb g b mu v : (⟨1, ![128]⟩ : Shape).Idx → EReal) : Mat 100000 128 :=
  layer h (agg src dst h) wa (asRow ba) wb (asRow bb) (asRow g) (asRow b) (asRow mu) (asRow v)

/-- The mean of the rows over each graph: the rows added up by graph number, divided by the number of the graph's
    nodes, clamped below at one. -/
def pool (batch : IVec S100000) (h : Mat 100000 128) : Mat 64 128 :=
  Host.divf (F := Ideal)
    (Host.scatterAdd (F := Ideal) scatter_S64x128_S100000x1_S100000x128_1_0_0_1
      (broadcastInDim S64x128 ![] bcast_S_S64x128 (constant (F := Ideal) S_ .f32 0x00000000#32))
      (broadcastInDim S100000x1 ![0] bcast_S100000_S100000x1_0 batch) h)
    (broadcastInDim S64x128 ![0, 1] bcast_S64x1_S64x128_0_1
      (broadcastInDim S64x1 ![0] bcast_S64_S64x1_0
        (maximumf
          (Host.scatterAdd (F := Ideal) scatter_S64_S100000x1_S100000_n_0_0_1
            (broadcastInDim S64 ![] bcast_S_S64 (constant (F := Ideal) S_ .f32 0x00000000#32))
            (broadcastInDim S100000x1 ![0] bcast_S100000_S100000x1_0 batch)
            (broadcastInDim S100000 ![] bcast_S_S100000 (constant (F := Ideal) S_ .f32 0x3F800000#32)))
          (broadcastInDim S64 ![] bcast_S_S64 (constant (F := Ideal) S_ .f32 0x3F800000#32)))))

/-- A vector of 128 extended reals. -/
abbrev Vec128 : Type := (⟨1, ![128]⟩ : Shape).Idx → EReal

/-- THE NETWORK: three steps from the node features, each with its own weights, biases and normalisation vectors,
    then the mean over each graph. The arguments are in the order both programs take them. -/
def model (x : Mat 100000 128) (e : IVec S2x1600000) (batch : IVec S100000)
    (w11 : Mat 128 128) (b11 : Vec128) (w12 : Mat 128 128) (b12 : Vec128)
    (w21 : Mat 128 128) (b21 : Vec128) (w22 : Mat 128 128) (b22 : Vec128)
    (w31 : Mat 128 128) (b31 : Vec128) (w32 : Mat 128 128) (b32 : Vec128)
    (g1 be1 mu1 v1 g2 be2 mu2 v2 g3 be3 mu3 v3 : Vec128) : Mat 64 128 :=
  pool batch (step (srcRow e) (dstRow e) (step (srcRow e) (dstRow e) (step (srcRow e) (dstRow e) x
    w11 b11 w12 b12 g1 be1 mu1 v1) w21 b21 w22 b22 g2 be2 mu2 v2) w31 b31 w32 b32 g3 be3 mu3 v3)

/-- A vector reshaped to a one-row matrix is the vector laid out as a row. -/
theorem reshape_row (b : (⟨1, ![128]⟩ : Shape).Idx → EReal) (h : (⟨1, ![128]⟩ : Shape).ShapeCasts ⟨2, ![1, 128]⟩) :
    shapeCast ⟨2, ![1, 128]⟩ b h = asRow b := by
  funext i
  obtain ⟨p, q, rfl⟩ : ∃ (p : Fin 1) (q : Fin 128), i = ix2 p q := ⟨i 0, i 1, eq_ix2 i⟩
  obtain rfl : p = 0 := Subsingleton.elim _ _
  exact Cert.Layout.row_of_vec_apply b h q

end Cert.Gin

end
-- ==== Proof.KernelModel.lean ====
/-
  The kernel program computes the network (`Cert.Gin.model`) of its arguments. Its run alternates stretches of host
  operations with the three calls. Read from the launch memory forward: the first stretch cuts the edge table into its
  rows of sources and targets, forms the neighbour sums of the node features and lays six vectors out as rows; call 0
  leaves the first step in its output array (`LayerValue0.final`); the next stretch forms the neighbour sums of that
  array with the same two rows, which no call and no later stretch overwrites; and so on through call 2; the last
  stretch takes the mean over each graph. A buffer that neither a stretch nor a call writes keeps its contents, which
  is how the rows of the edge table and the arguments are read at the later stretches.
-/
import proofs.«108127_j38001870635069_1_alg».proof.Proof.LayerValue0
import proofs.«108127_j38001870635069_1_alg».proof.Proof.LayerValue1
import proofs.«108127_j38001870635069_1_alg».proof.Proof.LayerValue2
import proofs.«108127_j38001870635069_1_alg».proof.Proof.GinModel

set_option maxRecDepth 16384
set_option maxHeartbeats 1000000

noncomputable section

namespace Cert.KernelIdeal.ModelValue

open Idealize.ShloMosaic Idealize.ShloMosaic.TcCoe Idealize.SL.Sem
open Cert.KernelIdeal Cert.KernelIdeal.Gen Cert.KernelIdeal.Facts₀ Cert.Gin Cert.DenseLayer

variable (m : (ℓ : Loc nD τ sig) → Buf (Elt Ideal) ℓ) (ρ : Dev nD → PrngReg)

/-- An argument's contents at launch. -/
abbrev arg (c : Dev nD) (b : Ref sig .tc) : Buf (Elt Ideal) ((c.tc : Thread nD τ).loc b) := m ((c.tc : Thread nD τ).loc b)

/-! ## What the first stretch leaves, and what no call overwrites -/

theorem w1_v1 (c : Dev nD) : W1 m ρ c (Proc.devRef .tc main_v1) = srcRow (arg m c main_arg1) := by show StableHlo.after hostOps0 (W0 m ρ c) (Proc.devRef .tc main_v1) = _; after_results_simp <;> rfl
theorem w1_v3 (c : Dev nD) : W1 m ρ c (Proc.devRef .tc main_v3) = dstRow (arg m c main_arg1) := by show StableHlo.after hostOps0 (W0 m ρ c) (Proc.devRef .tc main_v3) = _; after_results_simp <;> rfl
theorem w1_arg2 (c : Dev nD) : W1 m ρ c (Proc.devRef .tc main_arg2) = arg m c main_arg2 := by show StableHlo.after hostOps0 (W0 m ρ c) (Proc.devRef .tc main_arg2) = _; after_results_simp <;> rfl
theorem w1_arg7 (c : Dev nD) : W1 m ρ c (Proc.devRef .tc main_arg7) = arg m c main_arg7 := by show StableHlo.after hostOps0 (W0 m ρ c) (Proc.devRef .tc main_arg7) = _; after_results_simp <;> rfl
theorem w1_arg8 (c : Dev nD) : W1 m ρ c (Proc.devRef .tc main_arg8) = arg m c main_arg8 := by show StableHlo.after hostOps0 (W0 m ρ c) (Proc.devRef .tc main_arg8) = _; after_results_simp <;> rfl
theorem w1_arg9 (c : Dev nD) : W1 m ρ c (Proc.devRef .tc main_arg9) = arg m c main_arg9 := by show StableHlo.after hostOps0 (W0 m ρ c) (Proc.devRef .tc main_arg9) = _; after_results_simp <;> rfl
theorem w1_arg10 (c : Dev nD) : W1 m ρ c (Proc.devRef .tc main_arg10) = arg m c main_arg10 := by show StableHlo.after hostOps0 (W0 m ρ c) (Proc.devRef .tc main_arg10) = _; after_results_simp <;> rfl
theorem w1_arg19 (c : Dev nD) : W1 m ρ c (Proc.devRef .tc main_arg19) = arg m c main_arg19 := by show StableHlo.after hostOps0 (W0 m ρ c) (Proc.devRef .tc main_arg19) = _; after_results_simp <;> rfl
theorem w1_arg20 (c : Dev nD) : W1 m ρ c (Proc.devRef .tc main_arg20) = arg m c main_arg20 := by show StableHlo.after hostOps0 (W0 m ρ c) (Proc.devRef .tc main_arg20) = _; after_results_simp <;> rfl
theorem w1_arg21 (c : Dev nD) : W1 m ρ c (Proc.devRef .tc main_arg21) = arg m c main_arg21 := by show StableHlo.after hostOps0 (W0 m ρ c) (Proc.devRef .tc main_arg21) = _; after_results_simp <;> rfl
theorem w1_arg22 (c : Dev nD) : W1 m ρ c (Proc.devRef .tc main_arg22) = arg m c main_arg22 := by show StableHlo.after hostOps0 (W0 m ρ c) (Proc.devRef .tc main_arg22) = _; after_results_simp <;> rfl
theorem w1_arg11 (c : Dev nD) : W1 m ρ c (Proc.devRef .tc main_arg11) = arg m c main_arg11 := by show StableHlo.after hostOps0 (W0 m ρ c) (Proc.devRef .tc main_arg11) = _; after_results_simp <;> rfl
theorem w1_arg12 (c : Dev nD) : W1 m ρ c (Proc.devRef .tc main_arg12) = arg m c main_arg12 := by show StableHlo.after hostOps0 (W0 m ρ c) (Proc.devRef .tc main_arg12) = _; after_results_simp <;> rfl
theorem w1_arg13 (c : Dev nD) : W1 m ρ c (Proc.devRef .tc main_arg13) = arg m c main_arg13 := by show StableHlo.after hostOps0 (W0 m ρ c) (Proc.devRef .tc main_arg13) = _; after_results_simp <;> rfl
theorem w1_arg14 (c : Dev nD) : W1 m ρ c (Proc.devRef .tc main_arg14) = arg m c main_arg14 := by show StableHlo.after hostOps0 (W0 m ρ c) (Proc.devRef .tc main_arg14) = _; after_results_simp <;> rfl
theorem w1_arg23 (c : Dev nD) : W1 m ρ c (Proc.devRef .tc main_arg23) = arg m c main_arg23 := by show StableHlo.after hostOps0 (W0 m ρ c) (Proc.devRef .tc main_arg23) = _; after_results_simp <;> rfl
theorem w1_arg24 (c : Dev nD) : W1 m ρ c (Proc.devRef .tc main_arg24) = arg m c main_arg24 := by show StableHlo.after hostOps0 (W0 m ρ c) (Proc.devRef .tc main_arg24) = _; after_results_simp <;> rfl
theorem w1_arg25 (c : Dev nD) : W1 m ρ c (Proc.devRef .tc main_arg25) = arg m c main_arg25 := by show StableHlo.after hostOps0 (W0 m ρ c) (Proc.devRef .tc main_arg25) = _; after_results_simp <;> rfl
theorem w1_arg26 (c : Dev nD) : W1 m ρ c (Proc.devRef .tc main_arg26) = arg m c main_arg26 := by show StableHlo.after hostOps0 (W0 m ρ c) (Proc.devRef .tc main_arg26) = _; after_results_simp <;> rfl

theorem w2_v1 (c : Dev nD) : W2 m ρ c (Proc.devRef .tc main_v1) = srcRow (arg m c main_arg1) := (W2_of_ne m ρ c main_v1 (by decide)).trans (w1_v1 m ρ c)
theorem w2_v3 (c : Dev nD) : W2 m ρ c (Proc.devRef .tc main_v3) = dstRow (arg m c main_arg1) := (W2_of_ne m ρ c main_v3 (by decide)).trans (w1_v3 m ρ c)
theorem w2_arg2 (c : Dev nD) : W2 m ρ c (Proc.devRef .tc main_arg2) = arg m c main_arg2 := (W2_of_ne m ρ c main_arg2 (by decide)).trans (w1_arg2 m ρ c)
theorem w2_arg7 (c : Dev nD) : W2 m ρ c (Proc.devRef .tc main_arg7) = arg m c main_arg7 := (W2_of_ne m ρ c main_arg7 (by decide)).trans (w1_arg7 m ρ c)
theorem w2_arg8 (c : Dev nD) : W2 m ρ c (Proc.devRef .tc main_arg8) = arg m c main_arg8 := (W2_of_ne m ρ c main_arg8 (by decide)).trans (w1_arg8 m ρ c)
theorem w2_arg9 (c : Dev nD) : W2 m ρ c (Proc.devRef .tc main_arg9) = arg m c main_arg9 := (W2_of_ne m ρ c main_arg9 (by decide)).trans (w1_arg9 m ρ c)
theorem w2_arg10 (c : Dev nD) : W2 m ρ c (Proc.devRef .tc main_arg10) = arg m c main_arg10 := (W2_of_ne m ρ c main_arg10 (by decide)).trans (w1_arg10 m ρ c)
theorem w2_arg19 (c : Dev nD) : W2 m ρ c (Proc.devRef .tc main_arg19) = arg m c main_arg19 := (W2_of_ne m ρ c main_arg19 (by decide)).trans (w1_arg19 m ρ c)
theorem w2_arg20 (c : Dev nD) : W2 m ρ c (Proc.devRef .tc main_arg20) = arg m c main_arg20 := (W2_of_ne m ρ c main_arg20 (by decide)).trans (w1_arg20 m ρ c)
theorem w2_arg21 (c : Dev nD) : W2 m ρ c (Proc.devRef .tc main_arg21) = arg m c main_arg21 := (W2_of_ne m ρ c main_arg21 (by decide)).trans (w1_arg21 m ρ c)
theorem w2_arg22 (c : Dev nD) : W2 m ρ c (Proc.devRef .tc main_arg22) = arg m c main_arg22 := (W2_of_ne m ρ c main_arg22 (by decide)).trans (w1_arg22 m ρ c)
theorem w2_arg11 (c : Dev nD) : W2 m ρ c (Proc.devRef .tc main_arg11) = arg m c main_arg11 := (W2_of_ne m ρ c main_arg11 (by decide)).trans (w1_arg11 m ρ c)
theorem w2_arg12 (c : Dev nD) : W2 m ρ c (Proc.devRef .tc main_arg12) = arg m c main_arg12 := (W2_of_ne m ρ c main_arg12 (by decide)).trans (w1_arg12 m ρ c)
theorem w2_arg13 (c : Dev nD) : W2 m ρ c (Proc.devRef .tc main_arg13) = arg m c main_arg13 := (W2_of_ne m ρ c main_arg13 (by decide)).trans (w1_arg13 m ρ c)
theorem w2_arg14 (c : Dev nD) : W2 m ρ c (Proc.devRef .tc main_arg14) = arg m c main_arg14 := (W2_of_ne m ρ c main_arg14 (by decide)).trans (w1_arg14 m ρ c)
theorem w2_arg23 (c : Dev nD) : W2 m ρ c (Proc.devRef .tc main_arg23) = arg m c main_arg23 := (W2_of_ne m ρ c main_arg23 (by decide)).trans (w1_arg23 m ρ c)
theorem w2_arg24 (c : Dev nD) : W2 m ρ c (Proc.devRef .tc main_arg24) = arg m c main_arg24 := (W2_of_ne m ρ c main_arg24 (by decide)).trans (w1_arg24 m ρ c)
theorem w2_arg25 (c : Dev nD) : W2 m ρ c (Proc.devRef .tc main_arg25) = arg m c main_arg25 := (W2_of_ne m ρ c main_arg25 (by decide)).trans (w1_arg25 m ρ c)
theorem w2_arg26 (c : Dev nD) : W2 m ρ c (Proc.devRef .tc main_arg26) = arg m c main_arg26 := (W2_of_ne m ρ c main_arg26 (by decide)).trans (w1_arg26 m ρ c)

theorem w4_v1 (c : Dev nD) : W4 m ρ c (Proc.devRef .tc main_v1) = srcRow (arg m c main_arg1) :=
  (W4_of_ne m ρ c main_v1 (by decide)).trans ((show StableHlo.after hostOps1 (W2 m ρ c) (Proc.devRef .tc main_v1) = W2 m ρ c (Proc.devRef .tc main_v1) by after_results_simp).trans (w2_v1 m ρ c))
theorem w4_v3 (c : Dev nD) : W4 m ρ c (Proc.devRef .tc main_v3) = dstRow (arg m c main_arg1) :=
  (W4_of_ne m ρ c main_v3 (by decide)).trans ((show StableHlo.after hostOps1 (W2 m ρ c) (Proc.devRef .tc main_v3) = W2 m ρ c (Proc.devRef .tc main_v3) by after_results_simp).trans (w2_v3 m ρ c))
theorem w4_arg2 (c : Dev nD) : W4 m ρ c (Proc.devRef .tc main_arg2) = arg m c main_arg2 :=
  (W4_of_ne m ρ c main_arg2 (by decide)).trans ((show StableHlo.after hostOps1 (W2 m ρ c) (Proc.devRef .tc main_arg2) = W2 m ρ c (Proc.devRef .tc main_arg2) by after_results_simp).trans (w2_arg2 m ρ c))
theorem w4_arg11 (c : Dev nD) : W4 m ρ c (Proc.devRef .tc main_arg11) = arg m c main_arg11 :=
  (W4_of_ne m ρ c main_arg11 (by decide)).trans ((show StableHlo.after hostOps1 (W2 m ρ c) (Proc.devRef .tc main_arg11) = W2 m ρ c (Proc.devRef .tc main_arg11) by after_results_simp).trans (w2_arg11 m ρ c))
theorem w4_arg12 (c : Dev nD) : W4 m ρ c (Proc.devRef .tc main_arg12) = arg m c main_arg12 :=
  (W4_of_ne m ρ c main_arg12 (by decide)).trans ((show StableHlo.after hostOps1 (W2 m ρ c) (Proc.devRef .tc main_arg12) = W2 m ρ c (Proc.devRef .tc main_arg12) by after_results_simp).trans (w2_arg12 m ρ c))
theorem w4_arg13 (c : Dev nD) : W4 m ρ c (Proc.devRef .tc main_arg13) = arg m c main_arg13 :=
  (W4_of_ne m ρ c main_arg13 (by decide)).trans ((show StableHlo.after hostOps1 (W2 m ρ c) (Proc.devRef .tc main_arg13) = W2 m ρ c (Proc.devRef .tc main_arg13) by after_results_simp).trans (w2_arg13 m ρ c))
theorem w4_arg14 (c : Dev nD) : W4 m ρ c (Proc.devRef .tc main_arg14) = arg m c main_arg14 :=
  (W4_of_ne m ρ c main_arg14 (by decide)).trans ((show StableHlo.after hostOps1 (W2 m ρ c) (Proc.devRef .tc main_arg14) = W2 m ρ c (Proc.devRef .tc main_arg14) by after_results_simp).trans (w2_arg14 m ρ c))
theorem w4_arg23 (c : Dev nD) : W4 m ρ c (Proc.devRef .tc main_arg23) = arg m c main_arg23 :=
  (W4_of_ne m ρ c main_arg23 (by decide)).trans ((show StableHlo.after hostOps1 (W2 m ρ c) (Proc.devRef .tc main_arg23) = W2 m ρ c (Proc.devRef .tc main_arg23) by after_results_simp).trans (w2_arg23 m ρ c))
theorem w4_arg24 (c : Dev nD) : W4 m ρ c (Proc.devRef .tc main_arg24) = arg m c main_arg24 :=
  (W4_of_ne m ρ c main_arg24 (by decide)).trans ((show StableHlo.after hostOps1 (W2 m ρ c) (Proc.devRef .tc main_arg24) = W2 m ρ c (Proc.devRef .tc main_arg24) by after_results_simp).trans (w2_arg24 m ρ c))
theorem w4_arg25 (c : Dev nD) : W4 m ρ c (Proc.devRef .tc main_arg25) = arg m c main_arg25 :=
  (W4_of_ne m ρ c main_arg25 (by decide)).trans ((show StableHlo.after hostOps1 (W2 m ρ c) (Proc.devRef .tc main_arg25) = W2 m ρ c (Proc.devRef .tc main_arg25) by after_results_simp).trans (w2_arg25 m ρ c))
theorem w4_arg26 (c : Dev nD) : W4 m ρ c (Proc.devRef .tc main_arg26) = arg m c main_arg26 :=
  (W4_of_ne m ρ c main_arg26 (by decide)).trans ((show StableHlo.after hostOps1 (W2 m ρ c) (Proc.devRef .tc main_arg26) = W2 m ρ c (Proc.devRef .tc main_arg26) by after_results_simp).trans (w2_arg26 m ρ c))

theorem w6_arg2 (c : Dev nD) : W6 m ρ c (Proc.devRef .tc main_arg2) = arg m c main_arg2 :=
  (W6_of_ne m ρ c main_arg2 (by decide)).trans ((show StableHlo.after hostOps2 (W4 m ρ c) (Proc.devRef .tc main_arg2) = W4 m ρ c (Proc.devRef .tc main_arg2) by after_results_simp).trans (w4_arg2 m ρ c))

/-! ## The three steps -/

/-- Call 0 leaves the first step of the node features. -/
theorem w2_v20 (c : Dev nD) : W2 m ρ c (Proc.devRef .tc main_v20) = (step (srcRow (arg m c main_arg1)) (dstRow (arg m c main_arg1)) (arg m c main_arg0) (arg m c main_arg3) (arg m c main_arg4) (arg m c main_arg5) (arg m c main_arg6) (arg m c main_arg15) (arg m c main_arg16) (arg m c main_arg17) (arg m c main_arg18)) := by
  refine (W2_arr m ρ c 10).trans ((LayerValue0.final (V1 m ρ) c).trans ?_)
  dsimp only [V1, W1]
  after_results_simp
  show layer (M := 100000) (arg m c main_arg0) (agg (srcRow (arg m c main_arg1)) (dstRow (arg m c main_arg1)) (arg m c main_arg0)) (arg m c main_arg3) (shapeCast S1x128 (arg m c main_arg4) Facts₀.shapeCasts_S128_S1x128) (arg m c main_arg5) (shapeCast S1x128 (arg m c main_arg6) Facts₀.shapeCasts_S128_S1x128) (shapeCast S1x128 (arg m c main_arg15) Facts₀.shapeCasts_S128_S1x128) (shapeCast S1x128 (arg m c main_arg16) Facts₀.shapeCasts_S128_S1x128) (shapeCast S1x128 (arg m c main_arg17) Facts₀.shapeCasts_S128_S1x128) (shapeCast S1x128 (arg m c main_arg18) Facts₀.shapeCasts_S128_S1x128) = _
  simp only [reshape_row]
  rfl

/-- Call 1 leaves the second step. -/
theorem w4_v37 (c : Dev nD) : W4 m ρ c (Proc.devRef .tc main_v37) = (step (srcRow (arg m c main_arg1)) (dstRow (arg m c main_arg1)) (step (srcRow (arg m c main_arg1)) (dstRow (arg m c main_arg1)) (arg m c main_arg0) (arg m c main_arg3) (arg m c main_arg4) (arg m c main_arg5) (arg m c main_arg6) (arg m c main_arg15) (arg m c main_arg16) (arg m c main_arg17) (arg m c main_arg18)) (arg m c main_arg7) (arg m c main_arg8) (arg m c main_arg9) (arg m c main_arg10) (arg m c main_arg19) (arg m c main_arg20) (arg m c main_arg21) (arg m c main_arg22)) := by
  refine (W4_arr m ρ c 10).trans ((LayerValue1.final (V3 m ρ) c).trans ?_)
  dsimp only [V3, W3]
  after_results_simp
  rw [w2_v20 m ρ c, w2_v1 m ρ c, w2_v3 m ρ c, w2_arg7 m ρ c, w2_arg8 m ρ c, w2_arg9 m ρ c, w2_arg10 m ρ c, w2_arg19 m ρ c, w2_arg20 m ρ c, w2_arg21 m ρ c, w2_arg22 m ρ c]
  show layer (M := 100000) (step (srcRow (arg m c main_arg1)) (dstRow (arg m c main_arg1)) (arg m c main_arg0) (arg m c main_arg3) (arg m c main_arg4) (arg m c main_arg5) (arg m c main_arg6) (arg m c main_arg15) (arg m c main_arg16) (arg m c main_arg17) (arg m c main_arg18)) (agg (srcRow (arg m c main_arg1)) (dstRow (arg m c main_arg1)) (step (srcRow (arg m c main_arg1)) (dstRow (arg m c main_arg1)) (arg m c main_arg0) (arg m c main_arg3) (arg m c main_arg4) (arg m c main_arg5) (arg m c main_arg6) (arg m c main_arg15) (arg m c main_arg16) (arg m c main_arg17) (arg m c main_arg18))) (arg m c main_arg7) (shapeCast S1x128 (arg m c main_arg8) Facts₀.shapeCasts_S128_S1x128) (arg m c main_arg9) (shapeCast S1x128 (arg m c main_arg10) Facts₀.shapeCasts_S128_S1x128) (shapeCast S1x128 (arg m c main_arg19) Facts₀.shapeCasts_S128_S1x128) (shapeCast S1x128 (arg m c main_arg20) Facts₀.shapeCasts_S128_S1x128) (shapeCast S1x128 (arg m c main_arg21) Facts₀.shapeCasts_S128_S1x128) (shapeCast S1x128 (arg m c main_arg22) Facts₀.shapeCasts_S128_S1x128) = _
  simp only [reshape_row]
  rfl

/-- Call 2 leaves the third step. -/
theorem w6_v54 (c : Dev nD) : W6 m ρ c (Proc.devRef .tc main_v54) = (step (srcRow (arg m c main_arg1)) (dstRow (arg m c main_arg1)) (step (srcRow (arg m c main_arg1)) (dstRow (arg m c main_arg1)) (step (srcRow (arg m c main_arg1)) (dstRow (arg m c main_arg1)) (arg m c main_arg0) (arg m c main_arg3) (arg m c main_arg4) (arg m c main_arg5) (arg m c main_arg6) (arg m c main_arg15) (arg m c main_arg16) (arg m c main_arg17) (arg m c main_arg18)) (arg m c main_arg7) (arg m c main_arg8) (arg m c main_arg9) (arg m c main_arg10) (arg m c main_arg19) (arg m c main_arg20) (arg m c main_arg21) (arg m c main_arg22)) (arg m c main_arg11) (arg m c main_arg12) (arg m c main_arg13) (arg m c main_arg14) (arg m c main_arg23) (arg m c main_arg24) (arg m c main_arg25) (arg m c main_arg26)) := by
  refine (W6_arr m ρ c 10).trans ((LayerValue2.final (V5 m ρ) c).trans ?_)
  dsimp only [V5, W5]
  after_results_simp
  rw [w4_v37 m ρ c, w4_v1 m ρ c, w4_v3 m ρ c, w4_arg11 m ρ c, w4_arg12 m ρ c, w4_arg13 m ρ c, w4_arg14 m ρ c, w4_arg23 m ρ c, w4_arg24 m ρ c, w4_arg25 m ρ c, w4_arg26 m ρ c]
  show layer (M := 100000) (step (srcRow (arg m c main_arg1)) (dstRow (arg m c main_arg1)) (step (srcRow (arg m c main_arg1)) (dstRow (arg m c main_arg1)) (arg m c main_arg0) (arg m c main_arg3) (arg m c main_arg4) (arg m c main_arg5) (arg m c main_arg6) (arg m c main_arg15) (arg m c main_arg16) (arg m c main_arg17) (arg m c main_arg18)) (arg m c main_arg7) (arg m c main_arg8) (arg m c main_arg9) (arg m c main_arg10) (arg m c main_arg19) (arg m c main_arg20) (arg m c main_arg21) (arg m c main_arg22)) (agg (srcRow (arg m c main_arg1)) (dstRow (arg m c main_arg1)) (step (srcRow (arg m c main_arg1)) (dstRow (arg m c main_arg1)) (step (srcRow (arg m c main_arg1)) (dstRow (arg m c main_arg1)) (arg m c main_arg0) (arg m c main_arg3) (arg m c main_arg4) (arg m c main_arg5) (arg m c main_arg6) (arg m c main_arg15) (arg m c main_arg16) (arg m c main_arg17) (arg m c main_arg18)) (arg m c main_arg7) (arg m c main_arg8) (arg m c main_arg9) (arg m c main_arg10) (arg m c main_arg19) (arg m c main_arg20) (arg m c main_arg21) (arg m c main_arg22))) (arg m c main_arg11) (shapeCast S1x128 (arg m c main_arg12) Facts₀.shapeCasts_S128_S1x128) (arg m c main_arg13) (shapeCast S1x128 (arg m c main_arg14) Facts₀.shapeCasts_S128_S1x128) (shapeCast S1x128 (arg m c main_arg23) Facts₀.shapeCasts_S128_S1x128) (shapeCast S1x128 (arg m c main_arg24) Facts₀.shapeCasts_S128_S1x128) (shapeCast S1x128 (arg m c main_arg25) Facts₀.shapeCasts_S128_S1x128) (shapeCast S1x128 (arg m c main_arg26) Facts₀.shapeCasts_S128_S1x128) = _
  simp only [reshape_row]
  rfl

/-! ## The result -/

/-- The result buffer at the end of the run holds the network of the arguments. -/
theorem result_eq (c : Dev nD) : W7 m ρ c (Proc.devRef .tc main_v66)
    = model (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) := by
  show StableHlo.after hostOps3 (W6 m ρ c) (Proc.devRef .tc main_v66) = _
  after_results_simp
  rw [w6_v54 m ρ c, w6_arg2 m ρ c]
  rfl

end Cert.KernelIdeal.ModelValue

end
-- ==== Proof.RefModel.lean ====
/-
  The reference computes the network (`Cert.Gin.model`) of its arguments: its run's result term is three times the
  layer in its host spelling — each rewritten to `Cert.Gin.layer` by `Cert.Gin.host_eq` — between the same gathers and
  scatter-adds the model keeps, and the same mean over each graph at the end.
-/
import proofs.«108127_j38001870635069_1_alg».proof.Proof.Gen.ReferenceIdeal.Run
import proofs.«108127_j38001870635069_1_alg».proof.Proof.GinModel

set_option maxRecDepth 16384

noncomputable section

namespace Cert.ReferenceIdeal.ModelValue

open Idealize.ShloMosaic Idealize.ShloMosaic.TcCoe Idealize.SL.Sem
open Cert.ReferenceIdeal Cert.ReferenceIdeal.Gen Cert.ReferenceIdeal.Value Cert.Gin

/-- The reference's matrix products are plain ones: rows by contraction times contraction by columns. -/
theorem dot_plain : Cert.ReferenceIdeal.dot_S100000x128_S128x128_S100000x128_1_0_0_1_n_n = DotDims.plain 100000 128 128 := rfl

/-- The reference's result is the network of its arguments. -/
theorem res_eq (m : (ℓ : Loc nD τ sig) → Buf (Elt Ideal) ℓ) (c : Dev nD) :
    res_main_v117 (F := Ideal) m c = model (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) := by
  unfold res_main_v117
  simp only [host_eq _ dot_plain]
  rfl

end Cert.ReferenceIdeal.ModelValue

end
-- ==== Proof.lean ====
/-
  Three message-passing layers on a graph of 100000 nodes and 1600000 edges, followed by the mean over each of the 64
  graphs of the batch. A layer adds to every node's features the sum of its neighbours' features, passes the sum through
  two dense layers (the first clamped at zero), normalises each of the 128 features with stored statistics
  ((y − μ) · (γ · (σ² + ε)^(-1/2)) + β) and clamps at zero.

  The kernel program does the gather of neighbour rows, the scatter-add of them and the final mean with host operations
  and the rest of each layer in a kernel call that works on blocks of 4000 rows, its matrix products taking operands
  rounded to bf16; the reference does everything with host operations. Over the extended reals a change of float format
  is the identity, a block of rows of a layer is the layer of the block of rows, and the matrix products are the same
  sums term by term; the gathers, scatter-adds and the mean are the same host operations on both sides and are applied
  to equal arrays, so they are never opened. Both programs therefore compute ONE function of the 27 arguments,
  `Cert.Gin.model`; no finiteness of the inputs is used.

  The three frames are the generated ones (the reference's is its generated run with the result dropped); the ideal
  pass rewrote nothing, so the kernel's idealization is its own text.
-/
import proofs.«108127_j38001870635069_1_alg».proof.Defs
import proofs.«108127_j38001870635069_1_alg».proof.Proof.Gen.Kernel
import proofs.«108127_j38001870635069_1_alg».proof.Proof.Gen.Kernel.Frame
import proofs.«108127_j38001870635069_1_alg».proof.Proof.Gen.KernelIdeal
import proofs.«108127_j38001870635069_1_alg».proof.Proof.Gen.KernelIdeal.Frame
import proofs.«108127_j38001870635069_1_alg».proof.Proof.Gen.ReferenceIdeal
import proofs.«108127_j38001870635069_1_alg».proof.Proof.Gen.ReferenceIdeal.Run
import proofs.«108127_j38001870635069_1_alg».proof.Proof.Gen.Pre_finite_inputs
import proofs.«108127_j38001870635069_1_alg».proof.Proof.KernelRun
import proofs.«108127_j38001870635069_1_alg».proof.Proof.KernelModel
import proofs.«108127_j38001870635069_1_alg».proof.Proof.RefModel
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

set_option maxHeartbeats 4000000 in
/-- Both programs end with the network of the arguments in their result buffer. -/
theorem algebraic : Cert.algebraic_KernelIdeal_ReferenceIdeal := by
  intro m ρ m' ρ' _ hagree
  refine ⟨fun c => Cert.Gin.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)), ?_, ?_⟩
  · exact (θ_run Cert.KernelIdeal.defs _ _).mono
      (fun _ h c => ⟨(h c).1.trans (Cert.KernelIdeal.ModelValue.result_eq m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.ModelValue.res_eq m' c).trans ?_
    obtain ⟨g0, g1, g2, g3, g4, g5, g6, g7, g8, g9, g10, g11, g12, g13, g14, g15, g16, g17, g18, g19, g20, g21, g22, g23, g24, g25, g26⟩ := hagree c
    rw [g0, g1, g2, g3, g4, g5, g6, g7, g8, g9, g10, g11, g12, g13, g14, g15, g16, g17, g18, g19, g20, g21, g22, g23, g24, g25, g26]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
